-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S32 .f32) (main_arg6 : FVec F S32x1 .f32) (main_arg7 : FVec F S1 .f32) (main_arg8 : FVec F S32x1 .f32) (main_arg9 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x32 .f32) (main_arg3 : FVec F S32 .f32) (main_arg4 : FVec F S32x32 .f32) (main_arg5 : FVec F S32 .f32) (main_arg6 : FVec F S32x1 .f32) (main_arg7 : FVec F S1 .f32) (main_arg8 : FVec F S32x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x32 : Shape := ⟨2, ![100000, 32]⟩
abbrev S5000x128 : Shape := ⟨2, ![5000, 128]⟩
abbrev S5000x32 : Shape := ⟨2, ![5000, 32]⟩
abbrev S1600000x32 : Shape := ⟨2, ![1600000, 32]⟩
abbrev S1x32 : Shape := ⟨2, ![1, 32]⟩
abbrev S5000x1 : Shape := ⟨2, ![5000, 1]⟩
abbrev S1x1 : Shape := ⟨2, ![1, 1]⟩

abbrev nBuf : Space → Nat
  | .hbm => 123
  | .vmem => 56
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S32x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S100000, .f32⟩
  | .hbm, ⟨48, _⟩ => ⟨S100000x1, .f32⟩
  | .hbm, ⟨49, _⟩ => ⟨S100000x32, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x32, .f32⟩
  | .hbm, ⟨59, _⟩ => ⟨S1600000x1, .f32⟩
  | .hbm, ⟨60, _⟩ => ⟨S1600000x32, .f32⟩
  | .hbm, ⟨61, _⟩ => ⟨S1600000x32, .f32⟩
  | .hbm, ⟨62, _⟩ => ⟨S_, .f32⟩
  | .hbm, ⟨63, _⟩ => ⟨S100000x32, .f32⟩
  | .hbm, ⟨64, _⟩ => ⟨S1600000x1, .i32⟩
  | .hbm, ⟨65, _⟩ => ⟨S100000x32, .f32⟩
  | .hbm, ⟨66, _⟩ => ⟨S1x32, .f32⟩
  | .hbm, ⟨67, _⟩ => ⟨S100000x32, .f32⟩
  | .hbm, ⟨68, _⟩ => ⟨S100000x32, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x32, .f32⟩
  | .hbm, ⟨78, _⟩ => ⟨S1600000x1, .f32⟩
  | .hbm, ⟨79, _⟩ => ⟨S1600000x32, .f32⟩
  | .hbm, ⟨80, _⟩ => ⟨S1600000x32, .f32⟩
  | .hbm, ⟨81, _⟩ => ⟨S_, .f32⟩
  | .hbm, ⟨82, _⟩ => ⟨S100000x32, .f32⟩
  | .hbm, ⟨83, _⟩ => ⟨S1600000x1, .i32⟩
  | .hbm, ⟨84, _⟩ => ⟨S100000x32, .f32⟩
  | .hbm, ⟨85, _⟩ => ⟨S1x32, .f32⟩
  | .hbm, ⟨86, _⟩ => ⟨S100000x32, .f32⟩
  | .hbm, ⟨87, _⟩ => ⟨S100000x1, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x1, .f32⟩
  | .hbm, ⟨97, _⟩ => ⟨S1600000x1, .f32⟩
  | .hbm, ⟨98, _⟩ => ⟨S1600000x1, .f32⟩
  | .hbm, ⟨99, _⟩ => ⟨S_, .f32⟩
  | .hbm, ⟨100, _⟩ => ⟨S100000x1, .f32⟩
  | .hbm, ⟨101, _⟩ => ⟨S1600000x1, .i32⟩
  | .hbm, ⟨102, _⟩ => ⟨S100000x1, .f32⟩
  | .hbm, ⟨103, _⟩ => ⟨S1x1, .f32⟩
  | .hbm, ⟨104, _⟩ => ⟨S100000x1, .f32⟩
  | .hbm, ⟨105, _⟩ => ⟨S100000x1, .f32⟩
  | .hbm, ⟨106, _⟩ => ⟨S_, .i32⟩
  | .hbm, ⟨107, _⟩ => ⟨S1600000, .i32⟩
  | .hbm, ⟨108, _⟩ => ⟨S1600000, .i1⟩
  | .hbm, ⟨109, _⟩ => ⟨S_, .i32⟩
  | .hbm, ⟨110, _⟩ => ⟨S1600000, .i32⟩
  | .hbm, ⟨111, _⟩ => ⟨S1600000, .i32⟩
  | .hbm, ⟨112, _⟩ => ⟨S1600000, .i32⟩
  | .hbm, ⟨113, _⟩ => ⟨S1600000x1, .i32⟩
  | .hbm, ⟨114, _⟩ => ⟨S1600000x1, .f32⟩
  | .hbm, ⟨115, _⟩ => ⟨S1600000x1, .f32⟩
  | .hbm, ⟨116, _⟩ => ⟨S1600000x1, .f32⟩
  | .hbm, ⟨117, _⟩ => ⟨S_, .f32⟩
  | .hbm, ⟨118, _⟩ => ⟨S100000x1, .f32⟩
  | .hbm, ⟨119, _⟩ => ⟨S1600000x1, .i32⟩
  | .hbm, ⟨120, _⟩ => ⟨S100000x1, .f32⟩
  | .hbm, ⟨121, _⟩ => ⟨S1x1, .f32⟩
  | .hbm, ⟨122, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S32x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x1, .f32⟩
  | .local _ .vmem, ⟨24, _⟩ => ⟨S5000x1, .f32⟩
  | .local _ .vmem, ⟨25, _⟩ => ⟨S1x32, .f32⟩
  | .local _ .vmem, ⟨26, _⟩ => ⟨S5000x32, .f32⟩
  | .local _ .vmem, ⟨27, _⟩ => ⟨S5000x32, .f32⟩
  | .local _ .vmem, ⟨28, _⟩ => ⟨S5000x32, .f32⟩
  | .local _ .vmem, ⟨29, _⟩ => ⟨S5000x32, .f32⟩
  | .local _ .vmem, ⟨30, _⟩ => ⟨S32x1, .f32⟩
  | .local _ .vmem, ⟨31, _⟩ => ⟨S5000x1, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S5000x1, .f32⟩
  | .local _ .vmem, ⟨38, _⟩ => ⟨S5000x1, .f32⟩
  | .local _ .vmem, ⟨39, _⟩ => ⟨S1x1, .f32⟩
  | .local _ .vmem, ⟨40, _⟩ => ⟨S5000x1, .f32⟩
  | .local _ .vmem, ⟨41, _⟩ => ⟨S5000x1, .f32⟩
  | .local _ .vmem, ⟨42, _⟩ => ⟨S5000x32, .f32⟩
  | .local _ .vmem, ⟨43, _⟩ => ⟨S5000x32, .f32⟩
  | .local _ .vmem, ⟨44, _⟩ => ⟨S32x1, .f32⟩
  | .local _ .vmem, ⟨45, _⟩ => ⟨S5000x1, .f32⟩
  | .local _ .vmem, ⟨46, _⟩ => ⟨S5000x1, .f32⟩
  | .local _ .vmem, ⟨47, _⟩ => ⟨S5000x1, .f32⟩
  | .local _ .vmem, ⟨48, _⟩ => ⟨S5000x1, .f32⟩
  | .local _ .vmem, ⟨49, _⟩ => ⟨S5000x1, .f32⟩
  | .local _ .vmem, ⟨50, _⟩ => ⟨S5000x1, .f32⟩
  | .local _ .vmem, ⟨51, _⟩ => ⟨S5000x1, .f32⟩
  | .local _ .vmem, ⟨52, _⟩ => ⟨S5000x1, .f32⟩
  | .local _ .vmem, ⟨53, _⟩ => ⟨S1x1, .f32⟩
  | .local _ .vmem, ⟨54, _⟩ => ⟨S5000x1, .f32⟩
  | .local _ .vmem, ⟨55, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_11 : Ref sig .tc := ⟨.hbm, 88, rfl⟩
abbrev main_v65 : Ref sig .tc := ⟨.hbm, 89, rfl⟩
abbrev main_v66 : Ref sig .tc := ⟨.hbm, 90, rfl⟩
abbrev main_c_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_14 : Ref sig .tc := ⟨.hbm, 106, rfl⟩
abbrev main_v80 : Ref sig .tc := ⟨.hbm, 107, rfl⟩
abbrev main_v81 : Ref sig .tc := ⟨.hbm, 108, rfl⟩
abbrev main_c_15 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_16 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x32_S5000x32_1_0_0_1_n_n_wf : DotDims.WF S5000x128 S128x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  dot_S5000x32_S32x1_S5000x1_1_0_0_1_n_n_wf : DotDims.WF S5000x32 S32x1 S5000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x32.size a ≤ S100000x32.size a
  hwx3_4 : ∀ i : grid3.Coords, EltTy.bits .f32 = 32 ∨ (Rect.block (s := S100000x32) S5000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x1.size a ≤ S32x1.size a
  hwx4_1 : ∀ i : grid4.Coords, EltTy.bits .f32 = 32 ∨ (Rect.block (s := S32x1) S32x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S100000x1.size a
  hwx5_0 : ∀ i : grid5.Coords, EltTy.bits .f32 = 32 ∨ (Rect.block (s := S100000x1) S5000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x1.size a ≤ S100000x1.size a
  hwx5_4 : ∀ i : grid5.Coords, EltTy.bits .f32 = 32 ∨ (Rect.block (s := S100000x1) S5000x1.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x1.size a ≤ S32x1.size a
  hwx6_1 : ∀ i : grid6.Coords, EltTy.bits .f32 = 32 ∨ (Rect.block (s := S32x1) S32x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x1.size a ≤ S100000x1.size a
  hwx7_0 : ∀ i : grid7.Coords, EltTy.bits .f32 = 32 ∨ (Rect.block (s := S100000x1) S5000x1.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x1.size a ≤ S100000x1.size a
  hwx7_4 : ∀ i : grid7.Coords, EltTy.bits .f32 = 32 ∨ (Rect.block (s := S100000x1) S5000x1.size (cc7_transform_4 i) (hinb7_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S5000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v63) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v64) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v31) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v77) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S5000x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v63) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S32x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S5000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v79) S5000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v91) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v31) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v92) S1x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v93) S5000x1.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x32 : Shape := ⟨2, ![100000, 32]⟩
abbrev S1600000x32 : Shape := ⟨2, ![1600000, 32]⟩
abbrev S100000x1 : Shape := ⟨2, ![100000, 1]⟩
abbrev S1x32 : Shape := ⟨2, ![1, 32]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S2x1600000, .i32⟩
  | 2 => ⟨S128x32, .f32⟩
  | 3 => ⟨S32, .f32⟩
  | 4 => ⟨S32x32, .f32⟩
  | 5 => ⟨S32, .f32⟩
  | 6 => ⟨S32x1, .f32⟩
  | 7 => ⟨S1, .f32⟩
  | 8 => ⟨S32x1, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S100000, .f32⟩
  | 48 => ⟨S100000x32, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x32, .f32⟩
  | 58 => ⟨S1600000x1, .f32⟩
  | 59 => ⟨S1600000x32, .f32⟩
  | 60 => ⟨S1600000x32, .f32⟩
  | 61 => ⟨S_, .f32⟩
  | 62 => ⟨S100000x32, .f32⟩
  | 63 => ⟨S1600000x1, .i32⟩
  | 64 => ⟨S100000x32, .f32⟩
  | 65 => ⟨S100000x1, .f32⟩
  | 66 => ⟨S100000x32, .f32⟩
  | 67 => ⟨S100000x32, .f32⟩
  | 68 => ⟨S100000x32, .f32⟩
  | 69 => ⟨S1x32, .f32⟩
  | 70 => ⟨S100000x32, .f32⟩
  | 71 => ⟨S100000x32, .f32⟩
  | 72 => ⟨S100000x32, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x32, .f32⟩
  | 82 => ⟨S1600000x1, .f32⟩
  | 83 => ⟨S1600000x32, .f32⟩
  | 84 => ⟨S1600000x32, .f32⟩
  | 85 => ⟨S_, .f32⟩
  | 86 => ⟨S100000x32, .f32⟩
  | 87 => ⟨S1600000x1, .i32⟩
  | 88 => ⟨S100000x32, .f32⟩
  | 89 => ⟨S100000x1, .f32⟩
  | 90 => ⟨S100000x32, .f32⟩
  | 91 => ⟨S100000x32, .f32⟩
  | 92 => ⟨S100000x32, .f32⟩
  | 93 => ⟨S1x32, .f32⟩
  | 94 => ⟨S100000x32, .f32⟩
  | 95 => ⟨S100000x32, .f32⟩
  | 96 => ⟨S_, .f32⟩
  | 97 => ⟨S100000x32, .f32⟩
  | 98 => ⟨S100000x32, .f32⟩
  | 99 => ⟨S100000x1, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x1, .f32⟩
  | 109 => ⟨S1600000x1, .f32⟩
  | 110 => ⟨S1600000x1, .f32⟩
  | 111 => ⟨S_, .f32⟩
  | 112 => ⟨S100000x1, .f32⟩
  | 113 => ⟨S1600000x1, .i32⟩
  | 114 => ⟨S100000x1, .f32⟩
  | 115 => ⟨S100000x1, .f32⟩
  | 116 => ⟨S100000x1, .f32⟩
  | 117 => ⟨S100000x1, .f32⟩
  | 118 => ⟨S1x1, .f32⟩
  | 119 => ⟨S100000x1, .f32⟩
  | 120 => ⟨S100000x1, .f32⟩
  | 121 => ⟨S100000x1, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000x1, .f32⟩
  | 3 => ⟨S1600000x1, .f32⟩
  | 4 => ⟨S1600000x1, .f32⟩
  | 5 => ⟨S_, .f32⟩
  | 6 => ⟨S100000x1, .f32⟩
  | 7 => ⟨S1600000x1, .i32⟩
  | 8 => ⟨S100000x1, .f32⟩
  | 9 => ⟨S100000x1, .f32⟩
  | 10 => ⟨S100000x1, .f32⟩
  | 11 => ⟨S100000x1, .f32⟩
  | 12 => ⟨S1x1, .f32⟩
  | 13 => ⟨S100000x1, .f32⟩
  | 14 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_8 : Ref sig .tc := ⟨.hbm, 73, rfl⟩
abbrev main_v53 : Ref sig .tc := ⟨.hbm, 74, rfl⟩
abbrev main_v54 : Ref sig .tc := ⟨.hbm, 75, rfl⟩
abbrev main_c_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_call0_cst : Ref sig .tc := ⟨.hbm, 96, rfl⟩
abbrev main_call0_v0 : Ref sig .tc := ⟨.hbm, 97, rfl⟩
abbrev main_v73 : Ref sig .tc := ⟨.hbm, 98, rfl⟩
abbrev main_v74 : Ref sig .tc := ⟨.hbm, 99, rfl⟩
abbrev main_c_11 : Ref sig .tc := ⟨.hbm, 100, rfl⟩
abbrev main_v75 : Ref sig .tc := ⟨.hbm, 101, rfl⟩
abbrev main_v76 : Ref sig .tc := ⟨.hbm, 102, rfl⟩
abbrev main_c_12 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_13 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_14 : Ref sig .tc := ⟨.hbm, 122, rfl⟩
abbrev main_v94 : Ref sig .tc := ⟨.hbm, 123, rfl⟩
abbrev main_v95 : Ref sig .tc := ⟨.hbm, 124, rfl⟩
abbrev main_c_15 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_16 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

class Facts : Prop extends Facts₀ where

variable [Facts]
-- ==== Proof.KernelRun.lean ====
import proofs.«178999_j54425825575435_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The kernel program's run, with its two results named

The program is eight kernel launches among stretches of host operations. Its buffer contents at the thirteen segment
boundaries form a fold from the launch memory: a stretch of host operations applies them, a launch replaces each of
its arrays by what its write-backs leave. Every weakly fair execution terminates without a fault in a state whose
unscoped buffers hold the last boundary's contents; the frame claim keeps of that only that the arguments are
unchanged. Here the two result buffers are kept as well, each at the last boundary's contents, so that a value can be
read off the fold.
-/

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two result buffers at the last boundary's
    contents and the argument arrays as launched. -/
theorem run_named : θ_run defs (onTc (τ := τ) (main (F := F))) ⟨m, fun _ => 0, ρ⟩ (fun r => ∀ c : Dev nD,
      r.2.mem ((c.tc : Thread nD τ).loc main_v78) = W13 m ρ c (Proc.devRef .tc main_v78)
      ∧ r.2.mem ((c.tc : Thread nD τ).loc main_v93) = W13 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v78 (by decide)),
       h c _ (mem_uc main_v93 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.Named

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRows.lean ====
/-
  A row vector laid along the rows of a matrix, in the two spellings a kernel and a host program give it.

  A vector `x` of `n` entries becomes the one-row matrix `y` with `y (0, j) = x j` either by a reshape or by a
  broadcast along axis 1: the two are one function (`shapeCast_row_eq_broadcastInDim`).  A one-row matrix `y` is laid
  down `m` rows, `(r, j) ↦ y (0, j)`, either by a broadcast of the vector (preceded by a cast of the one-row matrix to
  its own shape) or by a broadcast along both axes: again one function (`broadcastTo_oneRow_eq_broadcastInDim`).
-/
import Idealize.ShloMosaic.Lib.Pipeline.Value
import Idealize.ShloMosaic.Lib.ValueIdx
import Idealize.ShloMosaic.Lib.KernelVsHost

namespace Cert.LibRows

open Idealize.ShloMosaic Idealize.ShloMosaic.ValueIdx

variable {α : Type}

/-- A vector read as a one-row matrix: the reshape `[n] → [1, n]` and the broadcast along axis 1 both put entry `j`
    at `(0, j)`. -/
theorem shapeCast_row_eq_broadcastInDim {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val < 1 := (i 0).isLt
  have e2 := shapeCast_apply x h1 i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have e : (i 1).val < n := (i 1).isLt; omega
      · rfl)
  exact e2.trans e3.symm

/-- The kernel's broadcast of a one-row matrix (cast to its own shape first) down `m` rows, read at `(r, j)`: the
    row's entry `(0, j)`. -/
theorem broadcastTo_oneRow_apply {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ y hs) hb (ix2 p q) = y (ix2 (0 : Fin 1) q) := by
  rw [shapeCast_self]
  refine broadcastTo_apply y hb _ (ix2 (0 : Fin 1) q) ?_
  intro a
  match a with
  | ⟨0, _⟩ => rfl
  | ⟨1, _⟩ =>
    show q.val = if n = 1 then 0 else q.val
    split
    · have e : q.val < n := q.isLt; omega
    · rfl

/-- A one-row matrix laid down `m` rows: the kernel's broadcast of its same-shape cast is the host's broadcast along
    both axes; at `(r, j)` both read `y (0, j)`. -/
theorem broadcastTo_oneRow_eq_broadcastInDim {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ (shapeCast ⟨2, ![1, n]⟩ y hs) hb = broadcastInDim ⟨2, ![m, n]⟩ ![0, 1] hd y := by
  funext i
  obtain ⟨p, q, rfl⟩ : ∃ (p : Fin m) (q : Fin n), i = ix2 p q := ⟨i 0, i 1, eq_ix2 i⟩
  rw [broadcastInDim_oneRow_apply, broadcastTo_oneRow_apply]

end Cert.LibRows
-- ==== Proof.LibGcnLayer.lean ====
import Idealize.ShloMosaic.Lib.ValueIdx
import Idealize.ShloMosaic.PureOps.Ideal.Laws

/-!
# One graph-convolution layer, index by index, on the extended reals

A layer takes node features `X` (one row per node), transforms every row by a weight matrix, adds to each node's
transformed row the aggregate of its neighbours' rows, the row itself scaled by the node's own weight, and a bias:

  `out (r, j) = (A (r, j) + H (r, j) · S (r, 0)) + B (0, j)`,   `H (r, j) = ∑ c, X (r, c) · W (c, j)`.

The three pieces are stated here as functions of whole arrays: the dense transform `dense`, the rectifier `rect`
that one layer applies to its input first, and the combination `mix` of the transformed rows `H`, the aggregate `A`,
the column `S` of per-node weights and the one-row bias `B`. No entry of the result depends on how the rows are
grouped into blocks, and nothing here uses that an entry is finite: sums and products are those of the extended reals.
-/

noncomputable section

namespace GcnLayer

open Idealize.ShloMosaic Idealize.ShloMosaic.ValueIdx

variable {m k n : ℕ}

/-- The zero a rectifier compares against, given by its bits, is the real number zero. -/
theorem zero_word : (Scalar.ofBits (F := Ideal) .f32 0x00000000#32 : EReal) = 0 := Ideal.ofBits_zero_f32

/-- The dense transform: row `r` of `X` against column `j` of `W`. -/
def dense (X : (⟨2, ![m, k]⟩ : Shape).Idx → EReal) (W : (⟨2, ![k, n]⟩ : Shape).Idx → EReal) :
    (⟨2, ![m, n]⟩ : Shape).Idx → EReal :=
  fun i => ∑ c : Fin k, X (ix2 (i 0) c) * W (ix2 c (i 1))

theorem dense_apply (X : (⟨2, ![m, k]⟩ : Shape).Idx → EReal) (W : (⟨2, ![k, n]⟩ : Shape).Idx → EReal)
    (p : Fin m) (q : Fin n) : dense X W (ix2 p q) = ∑ c : Fin k, X (ix2 p c) * W (ix2 c q) := rfl

/-- The rectifier, entry by entry: the larger of the entry and zero. -/
def rect (X : (⟨2, ![m, n]⟩ : Shape).Idx → EReal) : (⟨2, ![m, n]⟩ : Shape).Idx → EReal :=
  fun i => max (X i) 0

theorem rect_apply (X : (⟨2, ![m, n]⟩ : Shape).Idx → EReal) (i : (⟨2, ![m, n]⟩ : Shape).Idx) :
    rect X i = max (X i) 0 := rfl

/-- The combination: the aggregate, plus the node's own transformed row scaled by the node's weight, plus the bias. -/
def mix (H A : (⟨2, ![m, n]⟩ : Shape).Idx → EReal) (S : (⟨2, ![m, 1]⟩ : Shape).Idx → EReal)
    (B : (⟨2, ![1, n]⟩ : Shape).Idx → EReal) : (⟨2, ![m, n]⟩ : Shape).Idx → EReal :=
  fun i => (A i + H i * S (ix2 (i 0) (0 : Fin 1))) + B (ix2 (0 : Fin 1) (i 1))

theorem mix_apply (H A : (⟨2, ![m, n]⟩ : Shape).Idx → EReal) (S : (⟨2, ![m, 1]⟩ : Shape).Idx → EReal)
    (B : (⟨2, ![1, n]⟩ : Shape).Idx → EReal) (p : Fin m) (q : Fin n) :
    mix H A S B (ix2 p q)
      = (A (ix2 p q) + H (ix2 p q) * S (ix2 p (0 : Fin 1))) + B (ix2 (0 : Fin 1) q) := rfl

end GcnLayer

end
-- ==== Proof.Payload.lean ====
import proofs.«178999_j54425825575435_1_alg».proof.Proof.Gen.KernelIdeal.Skeleton
import proofs.«178999_j54425825575435_1_alg».proof.Proof.LibDotIdx
import proofs.«178999_j54425825575435_1_alg».proof.Proof.LibKeepdims
import proofs.«178999_j54425825575435_1_alg».proof.Proof.LibRows
import proofs.«178999_j54425825575435_1_alg».proof.Proof.LibGcnLayer
import Idealize.ShloMosaic.Lib.ValueIdx
import Idealize.ShloMosaic.Lib.Pipeline.Value
import Idealize.ShloMosaic.PureOps.Ideal.Laws

/-!
# What each kernel body computes on one block of 5000 rows, index by index

Eight bodies, three kinds. A dense body rounds both operands to a narrower float format — which changes nothing on the
extended reals — and multiplies them into a zero accumulator: entry `(p, q)` is the sum over the contracted coordinate
of the products, the zero contributing nothing. One dense body first takes the larger of each entry and zero. A
combining body adds, to the aggregate, the transformed rows scaled by a column of per-row weights laid along the
columns, and then a one-row bias laid down the rows. In each case the block's entry `(p, q)` is the layer's
whole-array function of the block's operands read at `(p, q)`: a row of the result depends on the same row of the
row-indexed operands only, which is why the layer can be computed block of rows by block of rows.
-/

noncomputable section

namespace Cert.KernelIdeal.Block

open Cert.KernelIdeal Cert.KernelIdeal.Gen Idealize.ShloMosaic Idealize.ShloMosaic.ValueIdx GcnLayer

/-- A block's staging buffer is read and written whole, from its origin. -/
theorem origin2 : (![0, 0] : Fin 2 → Nat) = fun _ => 0 := funext fun a => by fin_cases a <;> rfl

/-! ## The dense bodies -/

/-- 128 features to 32. -/
theorem dense128_at (x : Vec Ideal S5000x128 .f32) (w : Vec Ideal S128x32 .f32) (p : Fin 5000) (q : Fin 32) :
    k0_pay1 (F := Ideal) x w (ix2 p q) = dense x w (ix2 p q) := by
  unfold k0_pay1
  exact DotIdx.matmul_plain_zero_apply dot_S5000x128_S128x32_S5000x32_1_0_0_1_n_n.wf none _ _ p q

/-- 32 features to 32. -/
theorem dense32_at (x : Vec Ideal S5000x32 .f32) (w : Vec Ideal S32x32 .f32) (p : Fin 5000) (q : Fin 32) :
    k2_pay1 (F := Ideal) x w (ix2 p q) = dense x w (ix2 p q) := by
  unfold k2_pay1
  rw [shapeCast_self]
  exact DotIdx.matmul_plain_zero_apply dot_S5000x32_S32x32_S5000x32_1_0_0_1_n_n.wf none _ _ p q

/-- 32 features to one. -/
theorem dense1_at (x : Vec Ideal S5000x32 .f32) (w : Vec Ideal S32x1 .f32) (p : Fin 5000) (q : Fin 1) :
    k6_pay1 (F := Ideal) x w (ix2 p q) = dense x w (ix2 p q) := by
  unfold k6_pay1
  rw [shapeCast_self]
  exact DotIdx.matmul_plain_zero_apply dot_S5000x32_S32x1_S5000x1_1_0_0_1_n_n.wf none _ _ p q

/-- 32 rectified features to one: each entry of the left operand is replaced by the larger of itself and zero first. -/
theorem rectDense1_at (x : Vec Ideal S5000x32 .f32) (w : Vec Ideal S32x1 .f32) (p : Fin 5000) (q : Fin 1) :
    k4_pay1 (F := Ideal) x w (ix2 p q) = dense (rect x) w (ix2 p q) := by
  unfold k4_pay1
  rw [shapeCast_self]
  refine (DotIdx.matmul_plain_zero_apply dot_S5000x32_S32x1_S5000x1_1_0_0_1_n_n.wf none _ _ p q).trans ?_
  refine Finset.sum_congr rfl fun c _ => ?_
  show max (x (ix2 p c)) (Scalar.ofBits (F := Ideal) .f32 0x00000000#32) * w (ix2 c q) = max (x (ix2 p c)) 0 * w (ix2 c q)
  rw [zero_word]

/-! ## The combining bodies -/

/-- Width 32. The body reads the aggregate first and the transformed rows second. -/
theorem mix32_at (agg hpre : Vec Ideal S5000x32 .f32) (sn : Vec Ideal S5000x1 .f32) (b : Vec Ideal S1x32 .f32)
    (p : Fin 5000) (q : Fin 32) :
    k1_pay1 (F := Ideal) agg hpre sn b (ix2 p q) = mix hpre agg sn b (ix2 p q) := by
  unfold k1_pay1
  rw [shapeCast_self agg, shapeCast_self hpre, shapeCast_self sn]
  show (agg (ix2 p q) + hpre (ix2 p q) * broadcastTo S5000x32 sn broadcasts_S5000x1_S5000x32 (ix2 p q))
      + broadcastTo S5000x32 (shapeCast S1x32 b shapeCasts_S1x32_S1x32) broadcasts_S1x32_S5000x32 (ix2 p q) = _
  rw [Cert.SupCon.Ker.broadcastTo_a1_ab_apply, Cert.LibRows.broadcastTo_oneRow_apply]
  rfl

/-- Width 32, the second layer's: the same body. -/
theorem mix32'_at (agg hpre : Vec Ideal S5000x32 .f32) (sn : Vec Ideal S5000x1 .f32) (b : Vec Ideal S1x32 .f32)
    (p : Fin 5000) (q : Fin 32) :
    k3_pay1 (F := Ideal) agg hpre sn b (ix2 p q) = mix hpre agg sn b (ix2 p q) := by
  unfold k3_pay1
  rw [shapeCast_self agg, shapeCast_self hpre, shapeCast_self sn]
  show (agg (ix2 p q) + hpre (ix2 p q) * broadcastTo S5000x32 sn broadcasts_S5000x1_S5000x32 (ix2 p q))
      + broadcastTo S5000x32 (shapeCast S1x32 b shapeCasts_S1x32_S1x32) broadcasts_S1x32_S5000x32 (ix2 p q) = _
  rw [Cert.SupCon.Ker.broadcastTo_a1_ab_apply, Cert.LibRows.broadcastTo_oneRow_apply]
  rfl

/-- Width one: the column of weights already has the block's shape, so only the bias is laid down the rows. -/
theorem mix1_at (agg hpre sn : Vec Ideal S5000x1 .f32) (b : Vec Ideal S1x1 .f32) (p : Fin 5000) (q : Fin 1) :
    k5_pay1 (F := Ideal) agg hpre sn b (ix2 p q) = mix hpre agg sn b (ix2 p q) := by
  unfold k5_pay1
  rw [shapeCast_self agg, shapeCast_self hpre, shapeCast_self sn]
  show (agg (ix2 p q) + hpre (ix2 p q) * sn (ix2 p q))
      + broadcastTo S5000x1 (shapeCast S1x1 b shapeCasts_S1x1_S1x1) broadcasts_S1x1_S5000x1 (ix2 p q) = _
  rw [Cert.LibRows.broadcastTo_oneRow_apply]
  have hq : q = (0 : Fin 1) := Subsingleton.elim _ _
  subst hq
  rfl

/-- Width one, the last layer's: the same body. -/
theorem mix1'_at (agg hpre sn : Vec Ideal S5000x1 .f32) (b : Vec Ideal S1x1 .f32) (p : Fin 5000) (q : Fin 1) :
    k7_pay1 (F := Ideal) agg hpre sn b (ix2 p q) = mix hpre agg sn b (ix2 p q) := by
  unfold k7_pay1
  rw [shapeCast_self agg, shapeCast_self hpre, shapeCast_self sn]
  show (agg (ix2 p q) + hpre (ix2 p q) * sn (ix2 p q))
      + broadcastTo S5000x1 (shapeCast S1x1 b shapeCasts_S1x1_S1x1) broadcasts_S1x1_S5000x1 (ix2 p q) = _
  rw [Cert.LibRows.broadcastTo_oneRow_apply]
  have hq : q = (0 : Fin 1) := Subsingleton.elim _ _
  subst hq
  rfl

end Cert.KernelIdeal.Block

end
-- ==== Proof.Dense0.lean ====
import proofs.«178999_j54425825575435_1_alg».proof.Proof.Gen.KernelIdeal.Frame
import proofs.«178999_j54425825575435_1_alg».proof.Proof.Payload
import Idealize.ShloMosaic.Lib.Pipeline.Value
import Idealize.ShloMosaic.Lib.ValueIdx

/-!
# The first dense transform, as one function of whole arrays

Launch 0 multiplies the node features, 5000 rows at a time over a grid of twenty points, by the first weight matrix.
Row `r` of the result depends on row `r` of the features only, and the twenty blocks tile the 100000 rows, so what the
launch leaves in its result array is the dense transform of the two whole operands.
-/

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem GcnLayer
open Idealize.ShloMosaic.Pipeline (Dat Cfg Window)

variable (V : (c : Dev nD) → (b : Ref sig .tc) → Buf (Elt Ideal) ((c : Thread nD τ).loc b))

/-- Point `t` stages rows `5000 t … 5000 t + 4999` of the left operand and of the result, and the whole weight matrix. -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Each of the twenty blocks of rows is some point's. -/
theorem onto0 : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of the dense transform of the operands as the launch finds them: entry
    `(p, q)` of the block is row `5000 t + p` of the left operand against column `q` of the weights. -/
theorem flushed0 (c : Dev nD) (t : Fin cfg0.N) :
    (dat0 V c).flushed 2 t
      = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero Block.origin2]
  simp only [View.ld_unit_zero (S := S5000x128) Block.origin2, View.ld_unit_zero (S := S128x32) Block.origin2]
  obtain ⟨e00, e01, e10, e11, e20, e21⟩ := maps0 t
  funext j
  obtain ⟨p, q, rfl⟩ : ∃ (p : Fin 5000) (q : Fin 32), j = ix2 p q := ⟨j 0, j 1, eq_ix2 j⟩
  rw [View.read_apply]
  refine (Block.dense128_at _ _ p q).trans ?_
  unfold dense
  beta_reduce
  refine Finset.sum_congr rfl fun k _ => ?_
  have hx : iblk0 V c 0 t (ix2 p k)
      = V c main_arg0 (ix2 ((((cfg0.win 2).blk t).view.emb (ix2 p q)) 0) k) := by
    show V c main_arg0 (((cfg0.win 0).blk t).view.emb (ix2 p k)) = _
    refine congrArg _ (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 128 + 1 * k.val = k.val
      omega
  have hw : iblk0 V c 1 t (ix2 k q)
      = V c main_arg2 (ix2 k ((((cfg0.win 2).blk t).view.emb (ix2 p q)) 1)) := by
    show V c main_arg2 (((cfg0.win 1).blk t).view.emb (ix2 k q)) = _
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 32 + 1 * q.val = win0_2.index t (1 : Fin 2) * 32 + 1 * q.val
      omega
  exact congrArg₂ (fun a b : EReal => a * b) hx hw

/-- An index of the result array is in point `t`'s block iff each coordinate is in the block's range on its axis. -/
theorem mem0 (t : Fin cfg0.N) (i : S100000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v32).slice (win0_2.rect t)).set ↔ _
  rw [View.set_slice_whole, Rect.mem_set_unit]
  exact Iff.rfl

/-- Row `r` lies in the block of point `r / 5000`: the twenty blocks tile the result. -/
theorem cover0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 32 ≤ (i 1).val ∧ (i 1).val < win0_2.index t (1 : Fin 2) * 32 + 32
    omega

/-- The result array after the launch: the dense transform of the operands as the launch finds them. -/
theorem final0 (c : Dev nD) :
    (dat0 V c).arrAt 2 cfg0.N = dense (V c main_arg0) (V c main_arg2) :=
  (dat0 V c).arrAt_eq_of_cover 2 _ (fun t _ => flushed0 V c t) (cover0)

end Cert.KernelIdeal.Layer

end
-- ==== Proof.Dense2.lean ====
import proofs.«178999_j54425825575435_1_alg».proof.Proof.Gen.KernelIdeal.Frame
import proofs.«178999_j54425825575435_1_alg».proof.Proof.Payload
import Idealize.ShloMosaic.Lib.Pipeline.Value
import Idealize.ShloMosaic.Lib.ValueIdx

/-!
# The second layer's dense transform, as one function of whole arrays

Launch 2 multiplies the first layer's output, 5000 rows at a time over a grid of twenty points, by the second weight
matrix. A row of the result depends on the same row of the left operand only and the twenty blocks tile the rows, so
the launch leaves the dense transform of its two whole operands.
-/

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem GcnLayer
open Idealize.ShloMosaic.Pipeline (Dat Cfg Window)

variable (V : (c : Dev nD) → (b : Ref sig .tc) → Buf (Elt Ideal) ((c : Thread nD τ).loc b))

/-- Point `t` stages rows `5000 t … 5000 t + 4999` of the left operand and of the result, and the whole weight matrix. -/
theorem maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Each of the twenty blocks of rows is some point's. -/
theorem onto2 : ∀ q0 : Fin 20, ∃ t : Fin cfg2.N, win2_2.index t = ![q0.val, 0] :=
  (by decide +kernel : ∀ q0 : Fin 20, ∃ t : Fin grid2.N, win2_2.index t = ![q0.val, 0])

/-- What point `t` writes back is block `t` of the dense transform of the operands as the launch finds them: entry
    `(p, q)` of the block is row `5000 t + p` of the left operand against column `q` of the weights. -/
theorem flushed2 (c : Dev nD) (t : Fin cfg2.N) :
    (dat2 V c).flushed 2 t
      = ((cfg2.win 2).blk t).view.read (Elt Ideal) (dense (V c main_v47) (V c main_arg4)) := by
  show (cfg2.win 2).cut (grid2.coords t) ((dat2 V c).after 2 t) = _
  rw [after2_2]
  unfold out2_2
  rw [View.canon_unit_zero Block.origin2]
  simp only [View.ld_unit_zero (S := S5000x32) Block.origin2, View.ld_unit_zero (S := S32x32) Block.origin2]
  obtain ⟨e00, e01, e10, e11, e20, e21⟩ := maps2 t
  funext j
  obtain ⟨p, q, rfl⟩ : ∃ (p : Fin 5000) (q : Fin 32), j = ix2 p q := ⟨j 0, j 1, eq_ix2 j⟩
  rw [View.read_apply]
  refine (Block.dense32_at _ _ p q).trans ?_
  unfold dense
  beta_reduce
  refine Finset.sum_congr rfl fun k _ => ?_
  have hx : iblk2 V c 0 t (ix2 p k)
      = V c main_v47 (ix2 ((((cfg2.win 2).blk t).view.emb (ix2 p q)) 0) k) := by
    show V c main_v47 (((cfg2.win 0).blk t).view.emb (ix2 p k)) = _
    refine congrArg _ (funext fun a => Fin.ext ?_)
    match a with
    | ⟨0, _⟩ =>
      show win2_0.index t (0 : Fin 2) * 5000 + 1 * p.val = win2_2.index t (0 : Fin 2) * 5000 + 1 * p.val
      omega
    | ⟨1, _⟩ =>
      show win2_0.index t (1 : Fin 2) * 32 + 1 * k.val = k.val
      omega
  have hw : iblk2 V c 1 t (ix2 k q)
      = V c main_arg4 (ix2 k ((((cfg2.win 2).blk t).view.emb (ix2 p q)) 1)) := by
    show V c main_arg4 (((cfg2.win 1).blk t).view.emb (ix2 k q)) = _
    refine congrArg _ (funext fun a => Fin.ext ?_)
    match a with
    | ⟨0, _⟩ =>
      show win2_1.index t (0 : Fin 2) * 32 + 1 * k.val = k.val
      omega
    | ⟨1, _⟩ =>
      show win2_1.index t (1 : Fin 2) * 32 + 1 * q.val = win2_2.index t (1 : Fin 2) * 32 + 1 * q.val
      omega
  exact congrArg₂ (fun a b : EReal => a * b) hx hw

/-- An index of the result array is in point `t`'s block iff each coordinate is in the block's range on its axis. -/
theorem mem2 (t : Fin cfg2.N) (i : S100000x32.Idx) :
    i ∈ ((cfg2.win 2).blk t).view.set ↔ ∀ a : Fin 2, win2_2.index t a * S5000x32.size a ≤ (i a).val
      ∧ (i a).val < win2_2.index t a * S5000x32.size a + S5000x32.size a := by
  show i ∈ ((View.whole main_v48).slice (win2_2.rect t)).set ↔ _
  rw [View.set_slice_whole, Rect.mem_set_unit]
  exact Iff.rfl

/-- Row `r` lies in the block of point `r / 5000`: the twenty blocks tile the result. -/
theorem cover2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 32 ≤ (i 1).val ∧ (i 1).val < win2_2.index t (1 : Fin 2) * 32 + 32
    omega

/-- The result array after the launch: the dense transform of the operands as the launch finds them. -/
theorem final2 (c : Dev nD) :
    (dat2 V c).arrAt 2 cfg2.N = dense (V c main_v47) (V c main_arg4) :=
  (dat2 V c).arrAt_eq_of_cover 2 _ (fun t _ => flushed2 V c t) (cover2)

end Cert.KernelIdeal.Layer

end
-- ==== Proof.Mix1.lean ====
import proofs.«178999_j54425825575435_1_alg».proof.Proof.Gen.KernelIdeal.Frame
import proofs.«178999_j54425825575435_1_alg».proof.Proof.Payload
import Idealize.ShloMosaic.Lib.Pipeline.Value
import Idealize.ShloMosaic.Lib.ValueIdx

/-!
# The first layer's combination, as one function of whole arrays

Launch 1 adds, 5000 rows at a time over a grid of twenty points, the aggregate of the neighbours' transformed rows, each
node's own transformed row scaled by the node's weight, and the bias. Row `r` of the result depends on row `r` of the
three row-indexed operands and on the whole bias, and the twenty blocks tile the 100000 rows, so the launch leaves the
combination of its four whole operands.
-/

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem GcnLayer
open Idealize.ShloMosaic.Pipeline (Dat Cfg Window)

variable (V : (c : Dev nD) → (b : Ref sig .tc) → Buf (Elt Ideal) ((c : Thread nD τ).loc b))

/-- Point `t` stages rows `5000 t … 5000 t + 4999` of the transformed rows, of the aggregate, of the column of weights
    and of the result, and the whole one-row bias. -/
theorem maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Each of the twenty blocks of rows is some point's. -/
theorem onto1 : ∀ q0 : Fin 20, ∃ t : Fin cfg1.N, win1_4.index t = ![q0.val, 0] :=
  (by decide +kernel : ∀ q0 : Fin 20, ∃ t : Fin grid1.N, win1_4.index t = ![q0.val, 0])

/-- What point `t` writes back is block `t` of the combination of the four operands as the launch finds them: entry
    `(p, q)` of the block reads row `5000 t + p` of the row-indexed operands and entry `q` of the bias. -/
theorem flushed1 (c : Dev nD) (t : Fin cfg1.N) :
    (dat1 V c).flushed 4 t
      = ((cfg1.win 4).blk t).view.read (Elt Ideal)
          (mix (V c main_v32) (V c main_v45) (V c main_v31) (V c main_v46)) := by
  show (cfg1.win 4).cut (grid1.coords t) ((dat1 V c).after 4 t) = _
  rw [after1_4]
  unfold out1_4
  rw [View.canon_unit_zero Block.origin2]
  simp only [View.ld_unit_zero (S := S5000x32) Block.origin2, View.ld_unit_zero (S := S5000x1) Block.origin2, View.ld_unit_zero (S := S1x32) Block.origin2]
  obtain ⟨e00, e01, e10, e11, e20, e21, e30, e31, e40, e41⟩ := maps1 t
  funext j
  obtain ⟨p, q, rfl⟩ : ∃ (p : Fin 5000) (q : Fin 32), j = ix2 p q := ⟨j 0, j 1, eq_ix2 j⟩
  rw [View.read_apply]
  refine (Block.mix32_at _ _ _ _ p q).trans ?_
  unfold mix
  beta_reduce
  have hH : iblk1 V c 0 t (ix2 p q) = V c main_v32 (((cfg1.win 4).blk t).view.emb (ix2 p q)) := by
    show V c main_v32 (((cfg1.win 0).blk t).view.emb (ix2 p q)) = _
    refine congrArg _ (funext fun a => Fin.ext ?_)
    match a with
    | ⟨0, _⟩ =>
      show win1_0.index t (0 : Fin 2) * 5000 + 1 * p.val = win1_4.index t (0 : Fin 2) * 5000 + 1 * p.val
      omega
    | ⟨1, _⟩ =>
      show win1_0.index t (1 : Fin 2) * 32 + 1 * q.val = win1_4.index t (1 : Fin 2) * 32 + 1 * q.val
      omega
  have hA : iblk1 V c 1 t (ix2 p q) = V c main_v45 (((cfg1.win 4).blk t).view.emb (ix2 p q)) := by
    show V c main_v45 (((cfg1.win 1).blk t).view.emb (ix2 p q)) = _
    refine congrArg _ (funext fun a => Fin.ext ?_)
    match a with
    | ⟨0, _⟩ =>
      show win1_1.index t (0 : Fin 2) * 5000 + 1 * p.val = win1_4.index t (0 : Fin 2) * 5000 + 1 * p.val
      omega
    | ⟨1, _⟩ =>
      show win1_1.index t (1 : Fin 2) * 32 + 1 * q.val = win1_4.index t (1 : Fin 2) * 32 + 1 * q.val
      omega
  have hS : iblk1 V c 2 t (ix2 p (0 : Fin 1))
      = V c main_v31 (ix2 ((((cfg1.win 4).blk t).view.emb (ix2 p q)) 0) (0 : Fin 1)) := by
    show V c main_v31 (((cfg1.win 2).blk t).view.emb (ix2 p (0 : Fin 1))) = _
    refine congrArg _ (funext fun a => Fin.ext ?_)
    match a with
    | ⟨0, _⟩ =>
      show win1_2.index t (0 : Fin 2) * 5000 + 1 * p.val = win1_4.index t (0 : Fin 2) * 5000 + 1 * p.val
      omega
    | ⟨1, _⟩ =>
      show win1_2.index t (1 : Fin 2) * 1 + 1 * 0 = 0
      omega
  have hB : iblk1 V c 3 t (ix2 (0 : Fin 1) q)
      = V c main_v46 (ix2 (0 : Fin 1) ((((cfg1.win 4).blk t).view.emb (ix2 p q)) 1)) := by
    show V c main_v46 (((cfg1.win 3).blk t).view.emb (ix2 (0 : Fin 1) q)) = _
    refine congrArg _ (funext fun a => Fin.ext ?_)
    match a with
    | ⟨0, _⟩ =>
      show win1_3.index t (0 : Fin 2) * 1 + 1 * 0 = 0
      omega
    | ⟨1, _⟩ =>
      show win1_3.index t (1 : Fin 2) * 32 + 1 * q.val = win1_4.index t (1 : Fin 2) * 32 + 1 * q.val
      omega
  exact congrArg₂ (fun a b : EReal => a + b)
    (congrArg₂ (fun a b : EReal => a + b) hA (congrArg₂ (fun a b : EReal => a * b) hH hS)) hB

/-- An index of the result array is in point `t`'s block iff each coordinate is in the block's range on its axis. -/
theorem mem1 (t : Fin cfg1.N) (i : S100000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v47).slice (win1_4.rect t)).set ↔ _
  rw [View.set_slice_whole, Rect.mem_set_unit]
  exact Iff.rfl

/-- Row `r` lies in the block of point `r / 5000`: the twenty blocks tile the result. -/
theorem cover1 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht⟩ := onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 32 ≤ (i 1).val ∧ (i 1).val < win1_4.index t (1 : Fin 2) * 32 + 32
    omega

/-- The result array after the launch: the combination of the four operands as the launch finds them. -/
theorem final1 (c : Dev nD) :
    (dat1 V c).arrAt 4 cfg1.N = mix (V c main_v32) (V c main_v45) (V c main_v31) (V c main_v46) :=
  (dat1 V c).arrAt_eq_of_cover 4 _ (fun t _ => flushed1 V c t) (cover1)

end Cert.KernelIdeal.Layer

end
-- ==== Proof.Mix3.lean ====
import proofs.«178999_j54425825575435_1_alg».proof.Proof.Gen.KernelIdeal.Frame
import proofs.«178999_j54425825575435_1_alg».proof.Proof.Payload
import Idealize.ShloMosaic.Lib.Pipeline.Value
import Idealize.ShloMosaic.Lib.ValueIdx

/-!
# The second layer's combination, as one function of whole arrays

Launch 3 is the second layer's combination: aggregate, own transformed row scaled by the node's weight, bias, 5000
rows at a time. A row of the result depends on the same row of the row-indexed operands and on the whole bias, and the
twenty blocks tile the rows, so the launch leaves the combination of its four whole operands.
-/

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem GcnLayer
open Idealize.ShloMosaic.Pipeline (Dat Cfg Window)

variable (V : (c : Dev nD) → (b : Ref sig .tc) → Buf (Elt Ideal) ((c : Thread nD τ).loc b))

/-- Point `t` stages rows `5000 t … 5000 t + 4999` of the transformed rows, of the aggregate, of the column of weights
    and of the result, and the whole one-row bias. -/
theorem maps3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Each of the twenty blocks of rows is some point's. -/
theorem onto3 : ∀ q0 : Fin 20, ∃ t : Fin cfg3.N, win3_4.index t = ![q0.val, 0] :=
  (by decide +kernel : ∀ q0 : Fin 20, ∃ t : Fin grid3.N, win3_4.index t = ![q0.val, 0])

/-- What point `t` writes back is block `t` of the combination of the four operands as the launch finds them: entry
    `(p, q)` of the block reads row `5000 t + p` of the row-indexed operands and entry `q` of the bias. -/
theorem flushed3 (c : Dev nD) (t : Fin cfg3.N) :
    (dat3 V c).flushed 4 t
      = ((cfg3.win 4).blk t).view.read (Elt Ideal)
          (mix (V c main_v48) (V c main_v61) (V c main_v31) (V c main_v62)) := by
  show (cfg3.win 4).cut (grid3.coords t) ((dat3 V c).after 4 t) = _
  rw [after3_4]
  unfold out3_4
  rw [View.canon_unit_zero Block.origin2]
  simp only [View.ld_unit_zero (S := S5000x32) Block.origin2, View.ld_unit_zero (S := S5000x1) Block.origin2, View.ld_unit_zero (S := S1x32) Block.origin2]
  obtain ⟨e00, e01, e10, e11, e20, e21, e30, e31, e40, e41⟩ := maps3 t
  funext j
  obtain ⟨p, q, rfl⟩ : ∃ (p : Fin 5000) (q : Fin 32), j = ix2 p q := ⟨j 0, j 1, eq_ix2 j⟩
  rw [View.read_apply]
  refine (Block.mix32'_at _ _ _ _ p q).trans ?_
  unfold mix
  beta_reduce
  have hH : iblk3 V c 0 t (ix2 p q) = V c main_v48 (((cfg3.win 4).blk t).view.emb (ix2 p q)) := by
    show V c main_v48 (((cfg3.win 0).blk t).view.emb (ix2 p q)) = _
    refine congrArg _ (funext fun a => Fin.ext ?_)
    match a with
    | ⟨0, _⟩ =>
      show win3_0.index t (0 : Fin 2) * 5000 + 1 * p.val = win3_4.index t (0 : Fin 2) * 5000 + 1 * p.val
      omega
    | ⟨1, _⟩ =>
      show win3_0.index t (1 : Fin 2) * 32 + 1 * q.val = win3_4.index t (1 : Fin 2) * 32 + 1 * q.val
      omega
  have hA : iblk3 V c 1 t (ix2 p q) = V c main_v61 (((cfg3.win 4).blk t).view.emb (ix2 p q)) := by
    show V c main_v61 (((cfg3.win 1).blk t).view.emb (ix2 p q)) = _
    refine congrArg _ (funext fun a => Fin.ext ?_)
    match a with
    | ⟨0, _⟩ =>
      show win3_1.index t (0 : Fin 2) * 5000 + 1 * p.val = win3_4.index t (0 : Fin 2) * 5000 + 1 * p.val
      omega
    | ⟨1, _⟩ =>
      show win3_1.index t (1 : Fin 2) * 32 + 1 * q.val = win3_4.index t (1 : Fin 2) * 32 + 1 * q.val
      omega
  have hS : iblk3 V c 2 t (ix2 p (0 : Fin 1))
      = V c main_v31 (ix2 ((((cfg3.win 4).blk t).view.emb (ix2 p q)) 0) (0 : Fin 1)) := by
    show V c main_v31 (((cfg3.win 2).blk t).view.emb (ix2 p (0 : Fin 1))) = _
    refine congrArg _ (funext fun a => Fin.ext ?_)
    match a with
    | ⟨0, _⟩ =>
      show win3_2.index t (0 : Fin 2) * 5000 + 1 * p.val = win3_4.index t (0 : Fin 2) * 5000 + 1 * p.val
      omega
    | ⟨1, _⟩ =>
      show win3_2.index t (1 : Fin 2) * 1 + 1 * 0 = 0
      omega
  have hB : iblk3 V c 3 t (ix2 (0 : Fin 1) q)
      = V c main_v62 (ix2 (0 : Fin 1) ((((cfg3.win 4).blk t).view.emb (ix2 p q)) 1)) := by
    show V c main_v62 (((cfg3.win 3).blk t).view.emb (ix2 (0 : Fin 1) q)) = _
    refine congrArg _ (funext fun a => Fin.ext ?_)
    match a with
    | ⟨0, _⟩ =>
      show win3_3.index t (0 : Fin 2) * 1 + 1 * 0 = 0
      omega
    | ⟨1, _⟩ =>
      show win3_3.index t (1 : Fin 2) * 32 + 1 * q.val = win3_4.index t (1 : Fin 2) * 32 + 1 * q.val
      omega
  exact congrArg₂ (fun a b : EReal => a + b)
    (congrArg₂ (fun a b : EReal => a + b) hA (congrArg₂ (fun a b : EReal => a * b) hH hS)) hB

/-- An index of the result array is in point `t`'s block iff each coordinate is in the block's range on its axis. -/
theorem mem3 (t : Fin cfg3.N) (i : S100000x32.Idx) :
    i ∈ ((cfg3.win 4).blk t).view.set ↔ ∀ a : Fin 2, win3_4.index t a * S5000x32.size a ≤ (i a).val
      ∧ (i a).val < win3_4.index t a * S5000x32.size a + S5000x32.size a := by
  show i ∈ ((View.whole main_v63).slice (win3_4.rect t)).set ↔ _
  rw [View.set_slice_whole, Rect.mem_set_unit]
  exact Iff.rfl

/-- Row `r` lies in the block of point `r / 5000`: the twenty blocks tile the result. -/
theorem cover3 (i : S100000x32.Idx) :
    ∃ t : Fin cfg3.N, (cfg3.win 4).flush t = true ∧ i ∈ ((cfg3.win 4).blk t).view.set := by
  have hi0 : (i 0).val < 100000 := (i 0).isLt
  have hi1 : (i 1).val < 32 := (i 1).isLt
  obtain ⟨t, ht⟩ := onto3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem3]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 32 ≤ (i 1).val ∧ (i 1).val < win3_4.index t (1 : Fin 2) * 32 + 32
    omega

/-- The result array after the launch: the combination of the four operands as the launch finds them. -/
theorem final3 (c : Dev nD) :
    (dat3 V c).arrAt 4 cfg3.N = mix (V c main_v48) (V c main_v61) (V c main_v31) (V c main_v62) :=
  (dat3 V c).arrAt_eq_of_cover 4 _ (fun t _ => flushed3 V c t) (cover3)

end Cert.KernelIdeal.Layer

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«178999_j54425825575435_1_alg».proof.Proof.LibDotIdx
import proofs.«178999_j54425825575435_1_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.LibGcnHost.lean ====
import proofs.«178999_j54425825575435_1_alg».proof.Proof.LibGcnLayer
import proofs.«178999_j54425825575435_1_alg».proof.Proof.LibRowOps
import Idealize.ShloMosaic.Lib.ValueIdx
import Idealize.ShloMosaic.Lib.Pipeline.Value
import Idealize.ShloMosaic.Lib.KernelVsHost
import Idealize.ShloMosaic.PureOps.Ideal.Laws

/-!
# The layer in a host program's spelling

A host program writes the dense transform as one contraction of whole arrays, the rectifier as a maximum with the
zero constant broadcast to the array's shape, and the combination with the per-node weights and the bias laid out by
broadcasts: the vector of weights to one column and the column along the columns, the bias vector to one row and the
row down the rows. Entry by entry these are `dense`, `rect` and `mix`. The weights and the bias reach `mix` as a
column `S` and a one-row matrix `B` however they were laid out, provided `S (p, 0)` is the `p`-th weight and
`B (0, q)` the `q`-th bias: a reshape of the vector and a broadcast of it along a new axis both are.
-/

noncomputable section

namespace GcnLayer

open Idealize.ShloMosaic Idealize.ShloMosaic.ValueIdx

variable {m k n : ℕ}

/-- The host's contraction of the second axis of `X` with the first of `W` is the dense transform. -/
theorem hostDot_eq_dense (w : DotDims.WF ⟨2, ![m, k]⟩ ⟨2, ![k, n]⟩ ⟨2, ![m, n]⟩ [1] [0] [0] [1] [] [])
    (prec : Option ContractPrecision) (X : FVec Ideal ⟨2, ![m, k]⟩ .f32) (W : FVec Ideal ⟨2, ![k, n]⟩ .f32) :
    Host.dotGeneral (⟨[1], [0], [0], [1], [], [], w⟩ : DotDims _ _ _) prec X W = dense X W := by
  funext i
  obtain ⟨p, q, rfl⟩ : ∃ (p : Fin m) (q : Fin n), i = ix2 p q := ⟨i 0, i 1, eq_ix2 i⟩
  exact Cert.LibRowOps.dotGeneral_plain_apply w prec X W p q

/-- The maximum with the broadcast zero constant is the rectifier. -/
theorem hostMax_eq_rect (X : FVec Ideal ⟨2, ![m, n]⟩ .f32)
    (hb : (⟨0, ![]⟩ : Shape).BroadcastsInDim ⟨2, ![m, n]⟩ (![] : Fin 0 → Fin 2)) :
    maximumf X (broadcastInDim ⟨2, ![m, n]⟩ ![] hb (constant ⟨0, ![]⟩ .f32 0x00000000#32)) = rect X := by
  funext i
  show max (X i) (Scalar.ofBits (F := Ideal) .f32 0x00000000#32) = max (X i) 0
  rw [zero_word]

/-- The combination as a host program lays it out, for any width: weights to a column and along the columns, bias to a
    row and down the rows. -/
theorem hostMix_eq_mix (H A : FVec Ideal ⟨2, ![m, n]⟩ .f32) (s : FVec Ideal ⟨1, ![m]⟩ .f32) (b : FVec Ideal ⟨1, ![n]⟩ .f32)
    (S : (⟨2, ![m, 1]⟩ : Shape).Idx → EReal) (B : (⟨2, ![1, n]⟩ : Shape).Idx → EReal)
    (hS : ∀ p : Fin m, S (ix2 p (0 : Fin 1)) = s (ix1 p)) (hB : ∀ q : Fin n, B (ix2 (0 : Fin 1) q) = b (ix1 q))
    (hd0 : (⟨1, ![m]⟩ : Shape).BroadcastsInDim ⟨2, ![m, 1]⟩ ![0])
    (hd : (⟨2, ![m, 1]⟩ : Shape).BroadcastsInDim ⟨2, ![m, n]⟩ ![0, 1])
    (hb1 : (⟨1, ![n]⟩ : Shape).BroadcastsInDim ⟨2, ![1, n]⟩ ![1])
    (hbd : (⟨2, ![1, n]⟩ : Shape).BroadcastsInDim ⟨2, ![m, n]⟩ ![0, 1]) :
    addf (addf A (mulf H (broadcastInDim ⟨2, ![m, n]⟩ ![0, 1] hd (broadcastInDim ⟨2, ![m, 1]⟩ ![0] hd0 s))))
        (broadcastInDim ⟨2, ![m, n]⟩ ![0, 1] hbd (broadcastInDim ⟨2, ![1, n]⟩ ![1] hb1 b))
      = mix H A S B := by
  funext i
  obtain ⟨p, q, rfl⟩ : ∃ (p : Fin m) (q : Fin n), i = ix2 p q := ⟨i 0, i 1, eq_ix2 i⟩
  show (A (ix2 p q) + H (ix2 p q)
        * broadcastInDim ⟨2, ![m, n]⟩ ![0, 1] hd (broadcastInDim ⟨2, ![m, 1]⟩ ![0] hd0 s) (ix2 p q))
      + broadcastInDim ⟨2, ![m, n]⟩ ![0, 1] hbd (broadcastInDim ⟨2, ![1, n]⟩ ![1] hb1 b) (ix2 p q)
    = (A (ix2 p q) + H (ix2 p q) * S (ix2 p (0 : Fin 1))) + B (ix2 (0 : Fin 1) q)
  rw [Cert.LibRowOps.colVec_host_apply, Cert.LibRowOps.rowVec_host_apply, hS, hB]

/-- The combination for width one: the column of weights already has the array's shape, so a host program broadcasts
    the weight vector to a column only. -/
theorem hostMix1_eq_mix (H A : FVec Ideal ⟨2, ![m, 1]⟩ .f32) (s : FVec Ideal ⟨1, ![m]⟩ .f32) (b : FVec Ideal ⟨1, ![1]⟩ .f32)
    (S : (⟨2, ![m, 1]⟩ : Shape).Idx → EReal) (B : (⟨2, ![1, 1]⟩ : Shape).Idx → EReal)
    (hS : ∀ p : Fin m, S (ix2 p (0 : Fin 1)) = s (ix1 p)) (hB : ∀ q : Fin 1, B (ix2 (0 : Fin 1) q) = b (ix1 q))
    (hd0 : (⟨1, ![m]⟩ : Shape).BroadcastsInDim ⟨2, ![m, 1]⟩ ![0])
    (hb1 : (⟨1, ![1]⟩ : Shape).BroadcastsInDim ⟨2, ![1, 1]⟩ ![1])
    (hbd : (⟨2, ![1, 1]⟩ : Shape).BroadcastsInDim ⟨2, ![m, 1]⟩ ![0, 1]) :
    addf (addf A (mulf H (broadcastInDim ⟨2, ![m, 1]⟩ ![0] hd0 s)))
        (broadcastInDim ⟨2, ![m, 1]⟩ ![0, 1] hbd (broadcastInDim ⟨2, ![1, 1]⟩ ![1] hb1 b))
      = mix H A S B := by
  funext i
  obtain ⟨p, q, rfl⟩ : ∃ (p : Fin m) (q : Fin 1), i = ix2 p q := ⟨i 0, i 1, eq_ix2 i⟩
  have hq : q = (0 : Fin 1) := Subsingleton.elim _ _
  subst hq
  show (A (ix2 p (0 : Fin 1)) + H (ix2 p (0 : Fin 1)) * broadcastInDim ⟨2, ![m, 1]⟩ ![0] hd0 s (ix2 p (0 : Fin 1)))
      + broadcastInDim ⟨2, ![m, 1]⟩ ![0, 1] hbd (broadcastInDim ⟨2, ![1, 1]⟩ ![1] hb1 b) (ix2 p (0 : Fin 1))
    = (A (ix2 p (0 : Fin 1)) + H (ix2 p (0 : Fin 1)) * S (ix2 p (0 : Fin 1))) + B (ix2 (0 : Fin 1) (0 : Fin 1))
  rw [Cert.LibRowOps.col1_host_apply, Cert.LibRowOps.rowVec_host_apply, hS, hB]

end GcnLayer

end
-- ==== Proof.RefNet.lean ====
import proofs.«178999_j54425825575435_1_alg».proof.Proof.Gen.ReferenceIdeal.Read
import proofs.«178999_j54425825575435_1_alg».proof.Proof.LibGcnLayer
import proofs.«178999_j54425825575435_1_alg».proof.Proof.LibGcnHost
import proofs.«178999_j54425825575435_1_alg».proof.Proof.LibKeepdims
import Idealize.ShloMosaic.Lib.Pipeline.Value
import Idealize.ShloMosaic.Lib.ValueIdx
import Idealize.ShloMosaic.PureOps.Ideal.Laws

/-!
# The reference network as four layers

The reference program computes, from the edge list alone, a weight for every edge and a weight for every node, and then
four graph-convolution layers: two of width 32, one after the other, and two of width one that both read the second
layer's output — the first of them through a rectifier. Each layer transforms the rows densely, aggregates over the
edges (every edge carries its source's transformed row, scaled by the edge's weight, to its target, where the rows
arriving are summed), and combines aggregate, own row and bias.

The aggregation is kept here as ONE function of the table of transformed rows and the edge list: nothing about which
rows an edge moves is ever needed, only that both programs apply the same function. The dense transform and the
combination are the layer's whole-array functions `dense` and `mix`. The node weights and the biases enter `mix` as
a column `S` and one-row matrices `B`, constrained only by what they hold: `S (p, 0)` is node `p`'s weight and
`B (0, q)` the bias's entry `q`.
-/

noncomputable section

namespace Cert.ReferenceIdeal.Net

open Cert.ReferenceIdeal Cert.ReferenceIdeal.Gen Cert.ReferenceIdeal.Read
open Idealize.ShloMosaic Idealize.ShloMosaic.ValueIdx GcnLayer

/-! ## The aggregation over the edges, as one function of the table -/

/-- A table of 32-wide rows: every edge's source row, scaled by the edge's weight, summed at the edge's target. -/
def agg32 (h : FVec Ideal S100000x32 .f32) (x1 : (⟨S2x1600000, .i32⟩ : BufTy).Contents (Elt Ideal)) : FVec Ideal S100000x32 .f32 :=
  Host.scatterAdd (F := Ideal) (φ := .f32) scatter_S100000x32_S1600000x1_S1600000x32_1_0_0_1 (val_main_v42 (F := Ideal))
    (val_main_v43 (F := Ideal) x1)
    (mulf (F := Ideal) (φ := .f32)
      (Host.gather (α := Ideal .f32) gather_S100000x32_S1600000x1_S1600000x32_1_0_n_n_0_1_132 h (val_main_v37 (F := Ideal) x1))
      (val_main_v40 (F := Ideal) x1))

/-- The same for a table of one-entry rows. -/
def agg1 (h : FVec Ideal S100000x1 .f32) (x1 : (⟨S2x1600000, .i32⟩ : BufTy).Contents (Elt Ideal)) : FVec Ideal S100000x1 .f32 :=
  Host.scatterAdd (F := Ideal) (φ := .f32) scatter_S100000x1_S1600000x1_S1600000x1_1_0_0_1 (val_main_v84 (F := Ideal))
    (val_main_v85 (F := Ideal) x1)
    (mulf (F := Ideal) (φ := .f32)
      (Host.gather (α := Ideal .f32) gather_S100000x1_S1600000x1_S1600000x1_1_0_n_n_0_1_11 h (val_main_v80 (F := Ideal) x1))
      (val_main_v82 (F := Ideal) x1))

section Layers

variable (x0 : (⟨S100000x128, .f32⟩ : BufTy).Contents (Elt Ideal)) (x1 : (⟨S2x1600000, .i32⟩ : BufTy).Contents (Elt Ideal)) (x2 : (⟨S128x32, .f32⟩ : BufTy).Contents (Elt Ideal)) (x3 : (⟨S32, .f32⟩ : BufTy).Contents (Elt Ideal))
  (x4 : (⟨S32x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal)) (x8 : (⟨S32x1, .f32⟩ : BufTy).Contents (Elt Ideal)) (x9 : (⟨S1, .f32⟩ : BufTy).Contents (Elt Ideal))

/-- The four aggregations of the reference are that function of the layer's transformed rows: each spells the same
    operations again, on the same edge list. -/
theorem v44_agg : val_main_v44 (F := Ideal) x0 x1 x2 = agg32 (val_main_v31 (F := Ideal) x0 x2) x1 := rfl
theorem v65_agg : val_main_v65 (F := Ideal) x0 x1 x2 x3 x4 = agg32 (val_main_v52 (F := Ideal) x0 x1 x2 x3 x4) x1 := rfl
theorem v86_agg : val_main_v86 (F := Ideal) x0 x1 x2 x3 x4 x5 x6 = agg1 (val_main_v74 (F := Ideal) x0 x1 x2 x3 x4 x5 x6) x1 := rfl
theorem v105_agg : val_main_v105 (F := Ideal) x0 x1 x2 x3 x4 x5 x8 = agg1 (val_main_v93 (F := Ideal) x0 x1 x2 x3 x4 x5 x8) x1 := rfl

variable (S : (⟨2, ![100000, 1]⟩ : Shape).Idx → EReal)
  (B3 B5 : (⟨2, ![1, 32]⟩ : Shape).Idx → EReal) (B7 B9 : (⟨2, ![1, 1]⟩ : Shape).Idx → EReal)

/-- The first layer's output. -/
def h1 : (⟨2, ![100000, 32]⟩ : Shape).Idx → EReal :=
  mix (m := 100000) (n := 32) (dense (m := 100000) (k := 128) (n := 32) x0 x2)
    (agg32 (dense (m := 100000) (k := 128) (n := 32) x0 x2) x1) S B3

/-- The second layer's output. -/
def h2 : (⟨2, ![100000, 32]⟩ : Shape).Idx → EReal :=
  mix (m := 100000) (n := 32) (dense (m := 100000) (k := 32) (n := 32) (h1 x0 x1 x2 S B3) x4)
    (agg32 (dense (m := 100000) (k := 32) (n := 32) (h1 x0 x1 x2 S B3) x4) x1) S B5

/-- The first result: a layer of width one on the rectified second-layer output. -/
def mu : (⟨2, ![100000, 1]⟩ : Shape).Idx → EReal :=
  mix (m := 100000) (n := 1) (dense (m := 100000) (k := 32) (n := 1) (rect (h2 x0 x1 x2 x4 S B3 B5)) x6)
    (agg1 (dense (m := 100000) (k := 32) (n := 1) (rect (h2 x0 x1 x2 x4 S B3 B5)) x6) x1) S B7

/-- The second result: a layer of width one on the second-layer output as it is. -/
def sd : (⟨2, ![100000, 1]⟩ : Shape).Idx → EReal :=
  mix (m := 100000) (n := 1) (dense (m := 100000) (k := 32) (n := 1) (h2 x0 x1 x2 x4 S B3 B5) x8)
    (agg1 (dense (m := 100000) (k := 32) (n := 1) (h2 x0 x1 x2 x4 S B3 B5) x8) x1) S B9

variable (hS : ∀ p : Fin 100000, S (ix2 p (0 : Fin 1)) = val_main_v30 (F := Ideal) x1 (ix1 p))
  (hB3 : ∀ q : Fin 32, B3 (ix2 (0 : Fin 1) q) = x3 (ix1 q)) (hB5 : ∀ q : Fin 32, B5 (ix2 (0 : Fin 1) q) = x5 (ix1 q))
  (hB7 : ∀ q : Fin 1, B7 (ix2 (0 : Fin 1) q) = x7 (ix1 q)) (hB9 : ∀ q : Fin 1, B9 (ix2 (0 : Fin 1) q) = x9 (ix1 q))

include hS hB3 in
/-- The reference's first layer is `h1`: its contraction is the dense transform, its aggregation the one function, and
    its broadcasts of the node weights and of the bias lay out the column and the row that `mix` reads. -/
theorem v51_eq : val_main_v51 (F := Ideal) x0 x1 x2 x3 = h1 x0 x1 x2 S B3 := by
  have hd : val_main_v31 (F := Ideal) x0 x2 = dense (m := 100000) (k := 128) (n := 32) x0 x2 :=
    hostDot_eq_dense dot_S100000x128_S128x32_S100000x32_1_0_0_1_n_n.wf none x0 x2
  unfold val_main_v51 val_main_v48 val_main_v47 val_main_v46 val_main_v45 val_main_v50 val_main_v49 h1
  refine (hostMix_eq_mix (m := 100000) (n := 32) (val_main_v31 (F := Ideal) x0 x2) (val_main_v44 (F := Ideal) x0 x1 x2)
      (val_main_v30 (F := Ideal) x1) x3 S B3 hS hB3 _ _ _ _).trans ?_
  rw [v44_agg, hd]

include hS hB3 hB5 in
/-- The reference's second layer is `h2`. -/
theorem v72_eq : val_main_v72 (F := Ideal) x0 x1 x2 x3 x4 x5 = h2 x0 x1 x2 x4 S B3 B5 := by
  have hd : val_main_v52 (F := Ideal) x0 x1 x2 x3 x4
      = dense (m := 100000) (k := 32) (n := 32) (val_main_v51 (F := Ideal) x0 x1 x2 x3) x4 :=
    hostDot_eq_dense dot_S100000x32_S32x32_S100000x32_1_0_0_1_n_n.wf none (val_main_v51 (F := Ideal) x0 x1 x2 x3) x4
  unfold val_main_v72 val_main_v69 val_main_v68 val_main_v67 val_main_v66 val_main_v71 val_main_v70 h2
  refine (hostMix_eq_mix (m := 100000) (n := 32) (val_main_v52 (F := Ideal) x0 x1 x2 x3 x4) (val_main_v65 (F := Ideal) x0 x1 x2 x3 x4)
      (val_main_v30 (F := Ideal) x1) x5 S B5 hS hB5 _ _ _ _).trans ?_
  rw [v65_agg, hd, v51_eq x0 x1 x2 x3 S B3 hS hB3]

include hS hB3 hB5 hB7 in
/-- The reference's first result is `mu`: its maximum with the broadcast zero is the rectifier. -/
theorem v92_eq : val_main_v92 (F := Ideal) x0 x1 x2 x3 x4 x5 x6 x7 = mu x0 x1 x2 x4 x6 S B3 B5 B7 := by
  have hr : val_main_v73 (F := Ideal) x0 x1 x2 x3 x4 x5
      = rect (m := 100000) (n := 32) (val_main_v72 (F := Ideal) x0 x1 x2 x3 x4 x5) :=
    hostMax_eq_rect (m := 100000) (n := 32) (val_main_v72 (F := Ideal) x0 x1 x2 x3 x4 x5) bcast_S_S100000x32
  have hd : val_main_v74 (F := Ideal) x0 x1 x2 x3 x4 x5 x6
      = dense (m := 100000) (k := 32) (n := 1) (val_main_v73 (F := Ideal) x0 x1 x2 x3 x4 x5) x6 :=
    hostDot_eq_dense dot_S100000x32_S32x1_S100000x1_1_0_0_1_n_n.wf none (val_main_v73 (F := Ideal) x0 x1 x2 x3 x4 x5) x6
  unfold val_main_v92 val_main_v89 val_main_v88 val_main_v87 val_main_v91 val_main_v90 mu
  refine (hostMix1_eq_mix (m := 100000) (val_main_v74 (F := Ideal) x0 x1 x2 x3 x4 x5 x6) (val_main_v86 (F := Ideal) x0 x1 x2 x3 x4 x5 x6)
      (val_main_v30 (F := Ideal) x1) x7 S B7 hS hB7 _ _ _).trans ?_
  rw [v86_agg, hd, hr, v72_eq x0 x1 x2 x3 x4 x5 S B3 B5 hS hB3 hB5]

include hS hB3 hB5 hB9 in
/-- The reference's second result is `sd`. -/
theorem v111_eq : val_main_v111 (F := Ideal) x0 x1 x2 x3 x4 x5 x8 x9 = sd x0 x1 x2 x4 x8 S B3 B5 B9 := by
  have hd : val_main_v93 (F := Ideal) x0 x1 x2 x3 x4 x5 x8
      = dense (m := 100000) (k := 32) (n := 1) (val_main_v72 (F := Ideal) x0 x1 x2 x3 x4 x5) x8 :=
    hostDot_eq_dense dot_S100000x32_S32x1_S100000x1_1_0_0_1_n_n.wf none (val_main_v72 (F := Ideal) x0 x1 x2 x3 x4 x5) x8
  unfold val_main_v111 val_main_v108 val_main_v107 val_main_v106 val_main_v110 val_main_v109 sd
  refine (hostMix1_eq_mix (m := 100000) (val_main_v93 (F := Ideal) x0 x1 x2 x3 x4 x5 x8) (val_main_v105 (F := Ideal) x0 x1 x2 x3 x4 x5 x8)
      (val_main_v30 (F := Ideal) x1) x9 S B9 hS hB9 _ _ _).trans ?_
  rw [v105_agg, hd, v72_eq x0 x1 x2 x3 x4 x5 S B3 B5 hS hB3 hB5]

end Layers

/-! ## The weight column and the bias rows, in closed form -/

theorem castCol : (⟨1, ![100000]⟩ : Shape).ShapeCasts ⟨2, ![100000, 1]⟩ := by decide
theorem castRow32 : (⟨1, ![32]⟩ : Shape).ShapeCasts ⟨2, ![1, 32]⟩ := by decide
theorem castRow1 : (⟨1, ![1]⟩ : Shape).ShapeCasts ⟨2, ![1, 1]⟩ := by decide

/-- The node weights as one column: what a reshape of the weight vector holds. -/
def nodeCol (x1 : (⟨S2x1600000, .i32⟩ : BufTy).Contents (Elt Ideal)) : (⟨2, ![100000, 1]⟩ : Shape).Idx → EReal :=
  shapeCast ⟨2, ![100000, 1]⟩ (val_main_v30 (F := Ideal) x1) castCol

theorem nodeCol_apply (x1 : (⟨S2x1600000, .i32⟩ : BufTy).Contents (Elt Ideal)) (p : Fin 100000) :
    nodeCol x1 (ix2 p (0 : Fin 1)) = val_main_v30 (F := Ideal) x1 (ix1 p) :=
  Cert.SupCon.Ker.shapeCast_a_a1_apply _ _ p 0

/-- A bias vector as a one-row matrix: what a reshape of it holds. -/
def biasRow {n : ℕ} (b : (⟨1, ![n]⟩ : Shape).Idx → EReal) (h : (⟨1, ![n]⟩ : Shape).ShapeCasts ⟨2, ![1, n]⟩) :
    (⟨2, ![1, n]⟩ : Shape).Idx → EReal :=
  shapeCast ⟨2, ![1, n]⟩ b h

theorem biasRow_apply {n : ℕ} (b : (⟨1, ![n]⟩ : Shape).Idx → EReal) (h : (⟨1, ![n]⟩ : Shape).ShapeCasts ⟨2, ![1, n]⟩)
    (q : Fin n) : biasRow b h (ix2 (0 : Fin 1) q) = b (ix1 q) :=
  shapeCast_apply b h (ix2 (0 : Fin 1) q) (ix1 q) (by
    rw [Shape.rowMajor_val_two, Shape.rowMajor_val_one]; show q.val = 0 * n + q.val; omega)

section Results

variable (x0 : (⟨S100000x128, .f32⟩ : BufTy).Contents (Elt Ideal)) (x1 : (⟨S2x1600000, .i32⟩ : BufTy).Contents (Elt Ideal)) (x2 : (⟨S128x32, .f32⟩ : BufTy).Contents (Elt Ideal)) (x3 : (⟨S32, .f32⟩ : BufTy).Contents (Elt Ideal))
  (x4 : (⟨S32x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal)) (x8 : (⟨S32x1, .f32⟩ : BufTy).Contents (Elt Ideal)) (x9 : (⟨S1, .f32⟩ : BufTy).Contents (Elt Ideal))

/-- The first result as a function of the arguments. -/
def muOf : (⟨2, ![100000, 1]⟩ : Shape).Idx → EReal :=
  mu x0 x1 x2 x4 x6 (nodeCol x1) (biasRow (n := 32) x3 castRow32) (biasRow (n := 32) x5 castRow32) (biasRow (n := 1) x7 castRow1)

/-- The second result as a function of the arguments. -/
def sdOf : (⟨2, ![100000, 1]⟩ : Shape).Idx → EReal :=
  sd x0 x1 x2 x4 x8 (nodeCol x1) (biasRow (n := 32) x3 castRow32) (biasRow (n := 32) x5 castRow32) (biasRow (n := 1) x9 castRow1)

/-- The reference's first result is that function. -/
theorem mu_ref : val_main_v92 (F := Ideal) x0 x1 x2 x3 x4 x5 x6 x7 = muOf x0 x1 x2 x3 x4 x5 x6 x7 :=
  v92_eq x0 x1 x2 x3 x4 x5 x6 x7 _ _ _ _ (nodeCol_apply x1) (biasRow_apply (n := 32) x3 castRow32)
    (biasRow_apply (n := 32) x5 castRow32) (biasRow_apply (n := 1) x7 castRow1)

/-- The reference's second result is that function. -/
theorem sd_ref : val_main_v111 (F := Ideal) x0 x1 x2 x3 x4 x5 x8 x9 = sdOf x0 x1 x2 x3 x4 x5 x8 x9 :=
  v111_eq x0 x1 x2 x3 x4 x5 x8 x9 _ _ _ _ (nodeCol_apply x1) (biasRow_apply (n := 32) x3 castRow32)
    (biasRow_apply (n := 32) x5 castRow32) (biasRow_apply (n := 1) x9 castRow1)

end Results

end Cert.ReferenceIdeal.Net

end
-- ==== Proof.FoldA.lean ====
import proofs.«178999_j54425825575435_1_alg».proof.Proof.Gen.KernelIdeal.Frame
import proofs.«178999_j54425825575435_1_alg».proof.Proof.Dense0
import proofs.«178999_j54425825575435_1_alg».proof.Proof.Dense2
import proofs.«178999_j54425825575435_1_alg».proof.Proof.Mix1
import proofs.«178999_j54425825575435_1_alg».proof.Proof.Mix3
import proofs.«178999_j54425825575435_1_alg».proof.Proof.RefNet
import Idealize.ShloMosaic.Lib.StableHlo.Run
import Idealize.ShloMosaic.Lib.ValueIdx

/-!
# The kernel program's buffers, boundary by boundary: the two layers of width 32

The kernel program's buffer contents at its segment boundaries form a fold from the launch memory: a stretch of host
operations applies them; a launch replaces its result array by what its write-backs leave and keeps every other buffer.
Read at the buffers that matter, the fold says: the first stretch computes, from the edge list alone, the edge weights
and the node weights (the latter reshaped to one column); each layer's dense launch leaves the dense transform of the
layer's input; the stretch after it aggregates over the edges and reshapes the bias to one row; the combining launch
leaves the combination. The host operations are the reference's own, so each stretch's results are the reference's
stages, by unfolding and nothing else: which rows an edge moves is never looked at. A buffer that later segments need
is carried there unchanged: a stretch that does not write it keeps it, a launch that does not hold it keeps it, and a
launch that holds it as an operand writes nothing back to it.
-/

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo
open GcnLayer Cert.ReferenceIdeal.Read Cert.ReferenceIdeal.Net

variable (m : (ℓ : Loc nD τ sig) → Buf (Elt Ideal) ℓ) (ρ : Dev nD → PrngReg) (c : Dev nD)

-- the ten argument arrays as launched
set_option quotPrecheck false
local notation "x₀" => m ((c.tc : Thread nD τ).loc main_arg0)
local notation "x₁" => m ((c.tc : Thread nD τ).loc main_arg1)
local notation "x₂" => m ((c.tc : Thread nD τ).loc main_arg2)
local notation "x₃" => m ((c.tc : Thread nD τ).loc main_arg3)
local notation "x₄" => m ((c.tc : Thread nD τ).loc main_arg4)
local notation "x₅" => m ((c.tc : Thread nD τ).loc main_arg5)
local notation "x₆" => m ((c.tc : Thread nD τ).loc main_arg6)
local notation "x₇" => m ((c.tc : Thread nD τ).loc main_arg7)
local notation "x₈" => m ((c.tc : Thread nD τ).loc main_arg8)
local notation "x₉" => m ((c.tc : Thread nD τ).loc main_arg9)

/-! ## A buffer a stretch of host operations does not write -/

theorem hostKeep1 (b : Ref sig .tc)
    (h : (hostOps0 : List (HloOp τ sig (Elt Ideal))).Forall fun op => Proc.devRef .tc b ∉ op.writes) :
    W1 m ρ c (Proc.devRef .tc b) = W0 m ρ c (Proc.devRef .tc b) :=
  StableHlo.after_of_forall_not_mem _ _ (List.forall_iff_forall_mem.mp h)
theorem hostKeep3 (b : Ref sig .tc)
    (h : (hostOps1 : List (HloOp τ sig (Elt Ideal))).Forall fun op => Proc.devRef .tc b ∉ op.writes) :
    W3 m ρ c (Proc.devRef .tc b) = W2 m ρ c (Proc.devRef .tc b) :=
  StableHlo.after_of_forall_not_mem _ _ (List.forall_iff_forall_mem.mp h)
theorem hostKeep6 (b : Ref sig .tc)
    (h : (hostOps3 : List (HloOp τ sig (Elt Ideal))).Forall fun op => Proc.devRef .tc b ∉ op.writes) :
    W6 m ρ c (Proc.devRef .tc b) = W5 m ρ c (Proc.devRef .tc b) :=
  StableHlo.after_of_forall_not_mem _ _ (List.forall_iff_forall_mem.mp h)
theorem hostKeep9 (b : Ref sig .tc)
    (h : (hostOps5 : List (HloOp τ sig (Elt Ideal))).Forall fun op => Proc.devRef .tc b ∉ op.writes) :
    W9 m ρ c (Proc.devRef .tc b) = W8 m ρ c (Proc.devRef .tc b) :=
  StableHlo.after_of_forall_not_mem _ _ (List.forall_iff_forall_mem.mp h)
theorem hostKeep12 (b : Ref sig .tc)
    (h : (hostOps7 : List (HloOp τ sig (Elt Ideal))).Forall fun op => Proc.devRef .tc b ∉ op.writes) :
    W12 m ρ c (Proc.devRef .tc b) = W11 m ρ c (Proc.devRef .tc b) :=
  StableHlo.after_of_forall_not_mem _ _ (List.forall_iff_forall_mem.mp h)

/-- No operation of the stretch writes the buffer: each operation's one result buffer is another reference. -/
macro "host_untouched" : tactic => `(tactic|
  (simp only [hostOps0, hostOps1, hostOps3, hostOps5, hostOps7, List.Forall, StableHlo.nullary_writes,
     StableHlo.unary_writes, StableHlo.binary_writes, StableHlo.ternary_writes, StableHlo.quaternary_writes,
     StableHlo.reshape_writes, StableHlo.binaryIndexed_writes, Finset.mem_singleton]
   repeat' apply And.intro
   all_goals exact StableHlo.devRef_ne_of_ne (by decide)))

/-! ## The first stretch: the weights, from the edge list -/

/-- The edges' sources. -/
theorem src1 : W1 m ρ c (Proc.devRef .tc main_v1) = val_main_v1 (F := Ideal) x₁ := by
  show StableHlo.after hostOps0 (W0 m ρ c) (Proc.devRef .tc main_v1) = _
  dsimp only [hostOps0]
  after_results_simp
  rfl

/-- The edges' targets. -/
theorem dst1 : W1 m ρ c (Proc.devRef .tc main_v3) = val_main_v3 (F := Ideal) x₁ := by
  show StableHlo.after hostOps0 (W0 m ρ c) (Proc.devRef .tc main_v3) = _
  dsimp only [hostOps0]
  after_results_simp
  rfl

/-- The edge weights. -/
theorem ew1 : W1 m ρ c (Proc.devRef .tc main_v29) = val_main_v29 (F := Ideal) x₁ := by
  show StableHlo.after hostOps0 (W0 m ρ c) (Proc.devRef .tc main_v29) = _
  dsimp only [hostOps0]
  after_results_simp
  rfl

/-- The node weights, as one column. -/
theorem col1 : W1 m ρ c (Proc.devRef .tc main_v31) = nodeCol x₁ := by
  show StableHlo.after hostOps0 (W0 m ρ c) (Proc.devRef .tc main_v31) = _
  dsimp only [hostOps0]
  after_results_simp
  rfl

/-! ## The first layer -/

/-- The dense launch leaves the dense transform of the layer's input. -/
theorem denseAt1 : W2 m ρ c (Proc.devRef .tc main_v32) = (dense (m := 100000) (k := 128) (n := 32) x₀ x₂) :=
  (W2_arr m ρ c 2).trans ((Layer.final0 (V1 m ρ) c).trans (by
    rw [show V1 m ρ c main_arg0 = x₀ from (hostKeep1 m ρ c main_arg0 (by host_untouched)),
        show V1 m ρ c main_arg2 = x₂ from (hostKeep1 m ρ c main_arg2 (by host_untouched))]))

/-- The edge list's two rows and the edge weights, carried unchanged to the first stretch of host operations. -/
theorem src2 : W2 m ρ c (Proc.devRef .tc main_v1) = val_main_v1 (F := Ideal) x₁ :=
  ((W2_of_ne m ρ c main_v1 (by decide))).trans (src1 m ρ c)
theorem dst2 : W2 m ρ c (Proc.devRef .tc main_v3) = val_main_v3 (F := Ideal) x₁ :=
  ((W2_of_ne m ρ c main_v3 (by decide))).trans (dst1 m ρ c)
theorem ew2 : W2 m ρ c (Proc.devRef .tc main_v29) = val_main_v29 (F := Ideal) x₁ :=
  ((W2_of_ne m ρ c main_v29 (by decide))).trans (ew1 m ρ c)

/-- The stretch aggregates the transformed rows over the edges: the reference's operations on the same edge list. -/
theorem aggAt1 : W3 m ρ c (Proc.devRef .tc main_v45) = agg32 (dense (m := 100000) (k := 128) (n := 32) x₀ x₂) x₁ := by
  show StableHlo.after hostOps1 (W2 m ρ c) (Proc.devRef .tc main_v45) = _
  dsimp only [hostOps1]
  after_results_simp
  rw [denseAt1 m ρ c, src2 m ρ c, dst2 m ρ c, ew2 m ρ c]
  rfl

/-- The stretch reshapes the bias vector to one row. -/
theorem biasAt1 : W3 m ρ c (Proc.devRef .tc main_v46) = biasRow (n := 32) x₃ castRow32 := by
  show StableHlo.after hostOps1 (W2 m ρ c) (Proc.devRef .tc main_v46) = _
  dsimp only [hostOps1]
  after_results_simp
  rw [((W2_of_ne m ρ c main_arg3 (by decide)).trans
      (hostKeep1 m ρ c main_arg3 (by host_untouched)))]
  rfl

/-- The combining launch leaves the layer's output. -/
theorem out1 : W4 m ρ c (Proc.devRef .tc main_v47) = h1 x₀ x₁ x₂ (nodeCol x₁) (biasRow (n := 32) x₃ castRow32) := by
  refine (W4_arr m ρ c 4).trans ((Layer.final1 (V3 m ρ) c).trans ?_)
  rw [show V3 m ρ c main_v32 = (dense (m := 100000) (k := 128) (n := 32) x₀ x₂) from
        ((hostKeep3 m ρ c main_v32 (by host_untouched))).trans (denseAt1 m ρ c),
      show V3 m ρ c main_v45 = agg32 (dense (m := 100000) (k := 128) (n := 32) x₀ x₂) x₁ from aggAt1 m ρ c,
      show V3 m ρ c main_v31 = nodeCol x₁ from
        (((hostKeep3 m ρ c main_v31 (by host_untouched)).trans
      (W2_of_ne m ρ c main_v31 (by decide)))).trans (col1 m ρ c),
      show V3 m ρ c main_v46 = biasRow (n := 32) x₃ castRow32 from biasAt1 m ρ c]
  rfl

/-! ## The second layer -/

/-- The dense launch leaves the dense transform of the layer's input. -/
theorem denseAt2 : W5 m ρ c (Proc.devRef .tc main_v48) = (dense (m := 100000) (k := 32) (n := 32) (h1 x₀ x₁ x₂ (nodeCol x₁) (biasRow (n := 32) x₃ castRow32)) x₄) :=
  (W5_arr m ρ c 2).trans ((Layer.final2 (V4 m ρ) c).trans (by
    rw [show V4 m ρ c main_v47 = (h1 x₀ x₁ x₂ (nodeCol x₁) (biasRow (n := 32) x₃ castRow32)) from out1 m ρ c,
        show V4 m ρ c main_arg4 = x₄ from
          ((((W4_of_ne m ρ c main_arg4 (by decide)).trans
      (hostKeep3 m ρ c main_arg4 (by host_untouched))).trans
      (W2_of_ne m ρ c main_arg4 (by decide))).trans
      (hostKeep1 m ρ c main_arg4 (by host_untouched)))]))

/-- The edge list's two rows and the edge weights, carried unchanged to the second stretch of host operations. -/
theorem src5 : W5 m ρ c (Proc.devRef .tc main_v1) = val_main_v1 (F := Ideal) x₁ :=
  (((((W5_of_ne m ρ c main_v1 (by decide)).trans
      (W4_of_ne m ρ c main_v1 (by decide))).trans
      (hostKeep3 m ρ c main_v1 (by host_untouched))).trans
      (W2_of_ne m ρ c main_v1 (by decide)))).trans (src1 m ρ c)
theorem dst5 : W5 m ρ c (Proc.devRef .tc main_v3) = val_main_v3 (F := Ideal) x₁ :=
  (((((W5_of_ne m ρ c main_v3 (by decide)).trans
      (W4_of_ne m ρ c main_v3 (by decide))).trans
      (hostKeep3 m ρ c main_v3 (by host_untouched))).trans
      (W2_of_ne m ρ c main_v3 (by decide)))).trans (dst1 m ρ c)
theorem ew5 : W5 m ρ c (Proc.devRef .tc main_v29) = val_main_v29 (F := Ideal) x₁ :=
  (((((W5_of_ne m ρ c main_v29 (by decide)).trans
      (W4_of_ne m ρ c main_v29 (by decide))).trans
      (hostKeep3 m ρ c main_v29 (by host_untouched))).trans
      (W2_of_ne m ρ c main_v29 (by decide)))).trans (ew1 m ρ c)

/-- The stretch aggregates the transformed rows over the edges: the reference's operations on the same edge list. -/
theorem aggAt2 : W6 m ρ c (Proc.devRef .tc main_v61) = agg32 (dense (m := 100000) (k := 32) (n := 32) (h1 x₀ x₁ x₂ (nodeCol x₁) (biasRow (n := 32) x₃ castRow32)) x₄) x₁ := by
  show StableHlo.after hostOps3 (W5 m ρ c) (Proc.devRef .tc main_v61) = _
  dsimp only [hostOps3]
  after_results_simp
  rw [denseAt2 m ρ c, src5 m ρ c, dst5 m ρ c, ew5 m ρ c]
  rfl

/-- The stretch reshapes the bias vector to one row. -/
theorem biasAt2 : W6 m ρ c (Proc.devRef .tc main_v62) = biasRow (n := 32) x₅ castRow32 := by
  show StableHlo.after hostOps3 (W5 m ρ c) (Proc.devRef .tc main_v62) = _
  dsimp only [hostOps3]
  after_results_simp
  rw [(((((W5_of_ne m ρ c main_arg5 (by decide)).trans
      (W4_of_ne m ρ c main_arg5 (by decide))).trans
      (hostKeep3 m ρ c main_arg5 (by host_untouched))).trans
      (W2_of_ne m ρ c main_arg5 (by decide))).trans
      (hostKeep1 m ρ c main_arg5 (by host_untouched)))]
  rfl

/-- The combining launch leaves the layer's output. -/
theorem out2 : W7 m ρ c (Proc.devRef .tc main_v63) = h2 x₀ x₁ x₂ x₄ (nodeCol x₁) (biasRow (n := 32) x₃ castRow32) (biasRow (n := 32) x₅ castRow32) := by
  refine (W7_arr m ρ c 4).trans ((Layer.final3 (V6 m ρ) c).trans ?_)
  rw [show V6 m ρ c main_v48 = (dense (m := 100000) (k := 32) (n := 32) (h1 x₀ x₁ x₂ (nodeCol x₁) (biasRow (n := 32) x₃ castRow32)) x₄) from
        ((hostKeep6 m ρ c main_v48 (by host_untouched))).trans (denseAt2 m ρ c),
      show V6 m ρ c main_v61 = agg32 (dense (m := 100000) (k := 32) (n := 32) (h1 x₀ x₁ x₂ (nodeCol x₁) (biasRow (n := 32) x₃ castRow32)) x₄) x₁ from aggAt2 m ρ c,
      show V6 m ρ c main_v31 = nodeCol x₁ from
        ((((((hostKeep6 m ρ c main_v31 (by host_untouched)).trans
      (W5_of_ne m ρ c main_v31 (by decide))).trans
      ((W4_arr m ρ c 2).trans (((dat1 (V3 m ρ) c).arrAt_in 2 rfl _).trans (A_eq1 (V3 m ρ) c 2)))).trans
      (hostKeep3 m ρ c main_v31 (by host_untouched))).trans
      (W2_of_ne m ρ c main_v31 (by decide)))).trans (col1 m ρ c),
      show V6 m ρ c main_v62 = biasRow (n := 32) x₅ castRow32 from biasAt2 m ρ c]
  rfl

end Cert.KernelIdeal.Fold

end
-- ==== Proof.Dense4.lean ====
import proofs.«178999_j54425825575435_1_alg».proof.Proof.Gen.KernelIdeal.Frame
import proofs.«178999_j54425825575435_1_alg».proof.Proof.Payload
import Idealize.ShloMosaic.Lib.Pipeline.Value
import Idealize.ShloMosaic.Lib.ValueIdx

/-!
# The dense transform of the rectified features, as one function of whole arrays

Launch 4 replaces each entry of the second layer's output by the larger of itself and zero and multiplies the result,
5000 rows at a time over a grid of twenty points, by a one-column weight matrix. A row of the result depends on the
same row of the left operand only and the twenty blocks tile the rows, so the launch leaves the dense transform of the
rectified left operand.
-/

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem GcnLayer
open Idealize.ShloMosaic.Pipeline (Dat Cfg Window)

variable (V : (c : Dev nD) → (b : Ref sig .tc) → Buf (Elt Ideal) ((c : Thread nD τ).loc b))

/-- Point `t` stages rows `5000 t … 5000 t + 4999` of the left operand and of the result, and the whole weight matrix. -/
theorem maps4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Each of the twenty blocks of rows is some point's. -/
theorem onto4 : ∀ q0 : Fin 20, ∃ t : Fin cfg4.N, win4_2.index t = ![q0.val, 0] :=
  (by decide +kernel : ∀ q0 : Fin 20, ∃ t : Fin grid4.N, win4_2.index t = ![q0.val, 0])

/-- What point `t` writes back is block `t` of the dense transform of the rectified left operand of the operands as the launch finds them: entry
    `(p, q)` of the block is row `5000 t + p` of the left operand against column `q` of the weights. -/
theorem flushed4 (c : Dev nD) (t : Fin cfg4.N) :
    (dat4 V c).flushed 2 t
      = ((cfg4.win 2).blk t).view.read (Elt Ideal) (dense (rect (V c main_v63)) (V c main_arg6)) := by
  show (cfg4.win 2).cut (grid4.coords t) ((dat4 V c).after 2 t) = _
  rw [after4_2]
  unfold out4_2
  rw [View.canon_unit_zero Block.origin2]
  simp only [View.ld_unit_zero (S := S5000x32) Block.origin2, View.ld_unit_zero (S := S32x1) Block.origin2]
  obtain ⟨e00, e01, e10, e11, e20, e21⟩ := maps4 t
  funext j
  obtain ⟨p, q, rfl⟩ : ∃ (p : Fin 5000) (q : Fin 1), j = ix2 p q := ⟨j 0, j 1, eq_ix2 j⟩
  rw [View.read_apply]
  refine (Block.rectDense1_at _ _ p q).trans ?_
  unfold dense rect
  beta_reduce
  refine Finset.sum_congr rfl fun k _ => ?_
  have hx : iblk4 V c 0 t (ix2 p k)
      = V c main_v63 (ix2 ((((cfg4.win 2).blk t).view.emb (ix2 p q)) 0) k) := by
    show V c main_v63 (((cfg4.win 0).blk t).view.emb (ix2 p k)) = _
    refine congrArg _ (funext fun a => Fin.ext ?_)
    match a with
    | ⟨0, _⟩ =>
      show win4_0.index t (0 : Fin 2) * 5000 + 1 * p.val = win4_2.index t (0 : Fin 2) * 5000 + 1 * p.val
      omega
    | ⟨1, _⟩ =>
      show win4_0.index t (1 : Fin 2) * 32 + 1 * k.val = k.val
      omega
  have hw : iblk4 V c 1 t (ix2 k q)
      = V c main_arg6 (ix2 k ((((cfg4.win 2).blk t).view.emb (ix2 p q)) 1)) := by
    show V c main_arg6 (((cfg4.win 1).blk t).view.emb (ix2 k q)) = _
    refine congrArg _ (funext fun a => Fin.ext ?_)
    match a with
    | ⟨0, _⟩ =>
      show win4_1.index t (0 : Fin 2) * 32 + 1 * k.val = k.val
      omega
    | ⟨1, _⟩ =>
      show win4_1.index t (1 : Fin 2) * 1 + 1 * q.val = win4_2.index t (1 : Fin 2) * 1 + 1 * q.val
      omega
  exact congrArg₂ (fun a b : EReal => max a 0 * b) hx hw

/-- An index of the result array is in point `t`'s block iff each coordinate is in the block's range on its axis. -/
theorem mem4 (t : Fin cfg4.N) (i : S100000x1.Idx) :
    i ∈ ((cfg4.win 2).blk t).view.set ↔ ∀ a : Fin 2, win4_2.index t a * S5000x1.size a ≤ (i a).val
      ∧ (i a).val < win4_2.index t a * S5000x1.size a + S5000x1.size a := by
  show i ∈ ((View.whole main_v64).slice (win4_2.rect t)).set ↔ _
  rw [View.set_slice_whole, Rect.mem_set_unit]
  exact Iff.rfl

/-- Row `r` lies in the block of point `r / 5000`: the twenty blocks tile the result. -/
theorem cover4 (i : S100000x1.Idx) :
    ∃ t : Fin cfg4.N, (cfg4.win 2).flush t = true ∧ i ∈ ((cfg4.win 2).blk t).view.set := by
  have hi0 : (i 0).val < 100000 := (i 0).isLt
  have hi1 : (i 1).val < 1 := (i 1).isLt
  obtain ⟨t, ht⟩ := onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem4]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 1 ≤ (i 1).val ∧ (i 1).val < win4_2.index t (1 : Fin 2) * 1 + 1
    omega

/-- The result array after the launch: the dense transform of the rectified left operand of the operands as the launch finds them. -/
theorem final4 (c : Dev nD) :
    (dat4 V c).arrAt 2 cfg4.N = dense (rect (V c main_v63)) (V c main_arg6) :=
  (dat4 V c).arrAt_eq_of_cover 2 _ (fun t _ => flushed4 V c t) (cover4)

end Cert.KernelIdeal.Layer

end
-- ==== Proof.Dense6.lean ====
import proofs.«178999_j54425825575435_1_alg».proof.Proof.Gen.KernelIdeal.Frame
import proofs.«178999_j54425825575435_1_alg».proof.Proof.Payload
import Idealize.ShloMosaic.Lib.Pipeline.Value
import Idealize.ShloMosaic.Lib.ValueIdx

/-!
# The last dense transform, as one function of whole arrays

Launch 6 multiplies the second layer's output, unrectified, 5000 rows at a time over a grid of twenty points, by a
one-column weight matrix. A row of the result depends on the same row of the left operand only and the twenty blocks
tile the rows, so the launch leaves the dense transform of its two whole operands.
-/

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem GcnLayer
open Idealize.ShloMosaic.Pipeline (Dat Cfg Window)

variable (V : (c : Dev nD) → (b : Ref sig .tc) → Buf (Elt Ideal) ((c : Thread nD τ).loc b))

/-- Point `t` stages rows `5000 t … 5000 t + 4999` of the left operand and of the result, and the whole weight matrix. -/
theorem maps6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Each of the twenty blocks of rows is some point's. -/
theorem onto6 : ∀ q0 : Fin 20, ∃ t : Fin cfg6.N, win6_2.index t = ![q0.val, 0] :=
  (by decide +kernel : ∀ q0 : Fin 20, ∃ t : Fin grid6.N, win6_2.index t = ![q0.val, 0])

/-- What point `t` writes back is block `t` of the dense transform of the operands as the launch finds them: entry
    `(p, q)` of the block is row `5000 t + p` of the left operand against column `q` of the weights. -/
theorem flushed6 (c : Dev nD) (t : Fin cfg6.N) :
    (dat6 V c).flushed 2 t
      = ((cfg6.win 2).blk t).view.read (Elt Ideal) (dense (V c main_v63) (V c main_arg8)) := by
  show (cfg6.win 2).cut (grid6.coords t) ((dat6 V c).after 2 t) = _
  rw [after6_2]
  unfold out6_2
  rw [View.canon_unit_zero Block.origin2]
  simp only [View.ld_unit_zero (S := S5000x32) Block.origin2, View.ld_unit_zero (S := S32x1) Block.origin2]
  obtain ⟨e00, e01, e10, e11, e20, e21⟩ := maps6 t
  funext j
  obtain ⟨p, q, rfl⟩ : ∃ (p : Fin 5000) (q : Fin 1), j = ix2 p q := ⟨j 0, j 1, eq_ix2 j⟩
  rw [View.read_apply]
  refine (Block.dense1_at _ _ p q).trans ?_
  unfold dense
  beta_reduce
  refine Finset.sum_congr rfl fun k _ => ?_
  have hx : iblk6 V c 0 t (ix2 p k)
      = V c main_v63 (ix2 ((((cfg6.win 2).blk t).view.emb (ix2 p q)) 0) k) := by
    show V c main_v63 (((cfg6.win 0).blk t).view.emb (ix2 p k)) = _
    refine congrArg _ (funext fun a => Fin.ext ?_)
    match a with
    | ⟨0, _⟩ =>
      show win6_0.index t (0 : Fin 2) * 5000 + 1 * p.val = win6_2.index t (0 : Fin 2) * 5000 + 1 * p.val
      omega
    | ⟨1, _⟩ =>
      show win6_0.index t (1 : Fin 2) * 32 + 1 * k.val = k.val
      omega
  have hw : iblk6 V c 1 t (ix2 k q)
      = V c main_arg8 (ix2 k ((((cfg6.win 2).blk t).view.emb (ix2 p q)) 1)) := by
    show V c main_arg8 (((cfg6.win 1).blk t).view.emb (ix2 k q)) = _
    refine congrArg _ (funext fun a => Fin.ext ?_)
    match a with
    | ⟨0, _⟩ =>
      show win6_1.index t (0 : Fin 2) * 32 + 1 * k.val = k.val
      omega
    | ⟨1, _⟩ =>
      show win6_1.index t (1 : Fin 2) * 1 + 1 * q.val = win6_2.index t (1 : Fin 2) * 1 + 1 * q.val
      omega
  exact congrArg₂ (fun a b : EReal => a * b) hx hw

/-- An index of the result array is in point `t`'s block iff each coordinate is in the block's range on its axis. -/
theorem mem6 (t : Fin cfg6.N) (i : S100000x1.Idx) :
    i ∈ ((cfg6.win 2).blk t).view.set ↔ ∀ a : Fin 2, win6_2.index t a * S5000x1.size a ≤ (i a).val
      ∧ (i a).val < win6_2.index t a * S5000x1.size a + S5000x1.size a := by
  show i ∈ ((View.whole main_v79).slice (win6_2.rect t)).set ↔ _
  rw [View.set_slice_whole, Rect.mem_set_unit]
  exact Iff.rfl

/-- Row `r` lies in the block of point `r / 5000`: the twenty blocks tile the result. -/
theorem cover6 (i : S100000x1.Idx) :
    ∃ t : Fin cfg6.N, (cfg6.win 2).flush t = true ∧ i ∈ ((cfg6.win 2).blk t).view.set := by
  have hi0 : (i 0).val < 100000 := (i 0).isLt
  have hi1 : (i 1).val < 1 := (i 1).isLt
  obtain ⟨t, ht⟩ := onto6 ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem6]
  intro a
  match a with
  | ⟨0, _⟩ =>
    show win6_2.index t (0 : Fin 2) * 5000 ≤ (i 0).val ∧ (i 0).val < win6_2.index t (0 : Fin 2) * 5000 + 5000
    omega
  | ⟨1, _⟩ =>
    show win6_2.index t (1 : Fin 2) * 1 ≤ (i 1).val ∧ (i 1).val < win6_2.index t (1 : Fin 2) * 1 + 1
    omega

/-- The result array after the launch: the dense transform of the operands as the launch finds them. -/
theorem final6 (c : Dev nD) :
    (dat6 V c).arrAt 2 cfg6.N = dense (V c main_v63) (V c main_arg8) :=
  (dat6 V c).arrAt_eq_of_cover 2 _ (fun t _ => flushed6 V c t) (cover6)

end Cert.KernelIdeal.Layer

end
-- ==== Proof.Mix5.lean ====
import proofs.«178999_j54425825575435_1_alg».proof.Proof.Gen.KernelIdeal.Frame
import proofs.«178999_j54425825575435_1_alg».proof.Proof.Payload
import Idealize.ShloMosaic.Lib.Pipeline.Value
import Idealize.ShloMosaic.Lib.ValueIdx

/-!
# The combination that yields the first result, as one function of whole arrays

Launch 5 combines one-column operands: the aggregate, the transformed column scaled entry by entry by the column of
node weights, and a single bias entry laid down the rows. A row of the result depends on the same row of the operands
and the twenty blocks tile the rows, so the launch leaves the combination of its four whole operands.
-/

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem GcnLayer
open Idealize.ShloMosaic.Pipeline (Dat Cfg Window)

variable (V : (c : Dev nD) → (b : Ref sig .tc) → Buf (Elt Ideal) ((c : Thread nD τ).loc b))

/-- Point `t` stages rows `5000 t … 5000 t + 4999` of the transformed rows, of the aggregate, of the column of weights
    and of the result, and the whole one-row bias. -/
theorem maps5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Each of the twenty blocks of rows is some point's. -/
theorem onto5 : ∀ q0 : Fin 20, ∃ t : Fin cfg5.N, win5_4.index t = ![q0.val, 0] :=
  (by decide +kernel : ∀ q0 : Fin 20, ∃ t : Fin grid5.N, win5_4.index t = ![q0.val, 0])

/-- What point `t` writes back is block `t` of the combination of the four operands as the launch finds them: entry
    `(p, q)` of the block reads row `5000 t + p` of the row-indexed operands and entry `q` of the bias. -/
theorem flushed5 (c : Dev nD) (t : Fin cfg5.N) :
    (dat5 V c).flushed 4 t
      = ((cfg5.win 4).blk t).view.read (Elt Ideal)
          (mix (V c main_v64) (V c main_v76) (V c main_v31) (V c main_v77)) := by
  show (cfg5.win 4).cut (grid5.coords t) ((dat5 V c).after 4 t) = _
  rw [after5_4]
  unfold out5_4
  rw [View.canon_unit_zero Block.origin2]
  simp only [View.ld_unit_zero (S := S5000x1) Block.origin2, View.ld_unit_zero (S := S1x1) Block.origin2]
  obtain ⟨e00, e01, e10, e11, e20, e21, e30, e31, e40, e41⟩ := maps5 t
  funext j
  obtain ⟨p, q, rfl⟩ : ∃ (p : Fin 5000) (q : Fin 1), j = ix2 p q := ⟨j 0, j 1, eq_ix2 j⟩
  rw [View.read_apply]
  refine (Block.mix1_at _ _ _ _ p q).trans ?_
  unfold mix
  beta_reduce
  rw [cast_eq]
  have hH : iblk5 V c 0 t (ix2 p q) = V c main_v64 (((cfg5.win 4).blk t).view.emb (ix2 p q)) := by
    show V c main_v64 (((cfg5.win 0).blk t).view.emb (ix2 p q)) = _
    refine congrArg _ (funext fun a => Fin.ext ?_)
    match a with
    | ⟨0, _⟩ =>
      show win5_0.index t (0 : Fin 2) * 5000 + 1 * p.val = win5_4.index t (0 : Fin 2) * 5000 + 1 * p.val
      omega
    | ⟨1, _⟩ =>
      show win5_0.index t (1 : Fin 2) * 1 + 1 * q.val = win5_4.index t (1 : Fin 2) * 1 + 1 * q.val
      omega
  have hA : iblk5 V c 1 t (ix2 p q) = V c main_v76 (((cfg5.win 4).blk t).view.emb (ix2 p q)) := by
    show V c main_v76 (((cfg5.win 1).blk t).view.emb (ix2 p q)) = _
    refine congrArg _ (funext fun a => Fin.ext ?_)
    match a with
    | ⟨0, _⟩ =>
      show win5_1.index t (0 : Fin 2) * 5000 + 1 * p.val = win5_4.index t (0 : Fin 2) * 5000 + 1 * p.val
      omega
    | ⟨1, _⟩ =>
      show win5_1.index t (1 : Fin 2) * 1 + 1 * q.val = win5_4.index t (1 : Fin 2) * 1 + 1 * q.val
      omega
  have hS : iblk5 V c 2 t (ix2 p (0 : Fin 1))
      = V c main_v31 (ix2 ((((cfg5.win 4).blk t).view.emb (ix2 p q)) 0) (0 : Fin 1)) := by
    show V c main_v31 (((cfg5.win 2).blk t).view.emb (ix2 p (0 : Fin 1))) = _
    refine congrArg _ (funext fun a => Fin.ext ?_)
    match a with
    | ⟨0, _⟩ =>
      show win5_2.index t (0 : Fin 2) * 5000 + 1 * p.val = win5_4.index t (0 : Fin 2) * 5000 + 1 * p.val
      omega
    | ⟨1, _⟩ =>
      show win5_2.index t (1 : Fin 2) * 1 + 1 * 0 = 0
      omega
  have hB : iblk5 V c 3 t (ix2 (0 : Fin 1) q)
      = V c main_v77 (ix2 (0 : Fin 1) ((((cfg5.win 4).blk t).view.emb (ix2 p q)) 1)) := by
    show V c main_v77 (((cfg5.win 3).blk t).view.emb (ix2 (0 : Fin 1) q)) = _
    refine congrArg _ (funext fun a => Fin.ext ?_)
    match a with
    | ⟨0, _⟩ =>
      show win5_3.index t (0 : Fin 2) * 1 + 1 * 0 = 0
      omega
    | ⟨1, _⟩ =>
      show win5_3.index t (1 : Fin 2) * 1 + 1 * q.val = win5_4.index t (1 : Fin 2) * 1 + 1 * q.val
      omega
  exact congrArg₂ (fun a b : EReal => a + b)
    (congrArg₂ (fun a b : EReal => a + b) hA (congrArg₂ (fun a b : EReal => a * b) hH hS)) hB

/-- An index of the result array is in point `t`'s block iff each coordinate is in the block's range on its axis. -/
theorem mem5 (t : Fin cfg5.N) (i : S100000x1.Idx) :
    i ∈ ((cfg5.win 4).blk t).view.set ↔ ∀ a : Fin 2, win5_4.index t a * S5000x1.size a ≤ (i a).val
      ∧ (i a).val < win5_4.index t a * S5000x1.size a + S5000x1.size a := by
  show i ∈ ((View.whole main_v78).slice (win5_4.rect t)).set ↔ _
  rw [View.set_slice_whole, Rect.mem_set_unit]
  exact Iff.rfl

/-- Row `r` lies in the block of point `r / 5000`: the twenty blocks tile the result. -/
theorem cover5 (i : S100000x1.Idx) :
    ∃ t : Fin cfg5.N, (cfg5.win 4).flush t = true ∧ i ∈ ((cfg5.win 4).blk t).view.set := by
  have hi0 : (i 0).val < 100000 := (i 0).isLt
  have hi1 : (i 1).val < 1 := (i 1).isLt
  obtain ⟨t, ht⟩ := onto5 ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem5]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 1 ≤ (i 1).val ∧ (i 1).val < win5_4.index t (1 : Fin 2) * 1 + 1
    omega

/-- The result array after the launch: the combination of the four operands as the launch finds them. -/
theorem final5 (c : Dev nD) :
    (dat5 V c).arrAt 4 cfg5.N = mix (V c main_v64) (V c main_v76) (V c main_v31) (V c main_v77) :=
  (dat5 V c).arrAt_eq_of_cover 4 _ (fun t _ => flushed5 V c t) (cover5)

end Cert.KernelIdeal.Layer

end
-- ==== Proof.Mix7.lean ====
import proofs.«178999_j54425825575435_1_alg».proof.Proof.Gen.KernelIdeal.Frame
import proofs.«178999_j54425825575435_1_alg».proof.Proof.Payload
import Idealize.ShloMosaic.Lib.Pipeline.Value
import Idealize.ShloMosaic.Lib.ValueIdx

/-!
# The combination that yields the second result, as one function of whole arrays

Launch 7 is the last combination, on one-column operands: aggregate, transformed column scaled by the node weights,
one bias entry. A row of the result depends on the same row of the operands and the twenty blocks tile the rows, so the
launch leaves the combination of its four whole operands.
-/

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem GcnLayer
open Idealize.ShloMosaic.Pipeline (Dat Cfg Window)

variable (V : (c : Dev nD) → (b : Ref sig .tc) → Buf (Elt Ideal) ((c : Thread nD τ).loc b))

/-- Point `t` stages rows `5000 t … 5000 t + 4999` of the transformed rows, of the aggregate, of the column of weights
    and of the result, and the whole one-row bias. -/
theorem maps7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- Each of the twenty blocks of rows is some point's. -/
theorem onto7 : ∀ q0 : Fin 20, ∃ t : Fin cfg7.N, win7_4.index t = ![q0.val, 0] :=
  (by decide +kernel : ∀ q0 : Fin 20, ∃ t : Fin grid7.N, win7_4.index t = ![q0.val, 0])

/-- What point `t` writes back is block `t` of the combination of the four operands as the launch finds them: entry
    `(p, q)` of the block reads row `5000 t + p` of the row-indexed operands and entry `q` of the bias. -/
theorem flushed7 (c : Dev nD) (t : Fin cfg7.N) :
    (dat7 V c).flushed 4 t
      = ((cfg7.win 4).blk t).view.read (Elt Ideal)
          (mix (V c main_v79) (V c main_v91) (V c main_v31) (V c main_v92)) := by
  show (cfg7.win 4).cut (grid7.coords t) ((dat7 V c).after 4 t) = _
  rw [after7_4]
  unfold out7_4
  rw [View.canon_unit_zero Block.origin2]
  simp only [View.ld_unit_zero (S := S5000x1) Block.origin2, View.ld_unit_zero (S := S1x1) Block.origin2]
  obtain ⟨e00, e01, e10, e11, e20, e21, e30, e31, e40, e41⟩ := maps7 t
  funext j
  obtain ⟨p, q, rfl⟩ : ∃ (p : Fin 5000) (q : Fin 1), j = ix2 p q := ⟨j 0, j 1, eq_ix2 j⟩
  rw [View.read_apply]
  refine (Block.mix1'_at _ _ _ _ p q).trans ?_
  unfold mix
  beta_reduce
  rw [cast_eq]
  have hH : iblk7 V c 0 t (ix2 p q) = V c main_v79 (((cfg7.win 4).blk t).view.emb (ix2 p q)) := by
    show V c main_v79 (((cfg7.win 0).blk t).view.emb (ix2 p q)) = _
    refine congrArg _ (funext fun a => Fin.ext ?_)
    match a with
    | ⟨0, _⟩ =>
      show win7_0.index t (0 : Fin 2) * 5000 + 1 * p.val = win7_4.index t (0 : Fin 2) * 5000 + 1 * p.val
      omega
    | ⟨1, _⟩ =>
      show win7_0.index t (1 : Fin 2) * 1 + 1 * q.val = win7_4.index t (1 : Fin 2) * 1 + 1 * q.val
      omega
  have hA : iblk7 V c 1 t (ix2 p q) = V c main_v91 (((cfg7.win 4).blk t).view.emb (ix2 p q)) := by
    show V c main_v91 (((cfg7.win 1).blk t).view.emb (ix2 p q)) = _
    refine congrArg _ (funext fun a => Fin.ext ?_)
    match a with
    | ⟨0, _⟩ =>
      show win7_1.index t (0 : Fin 2) * 5000 + 1 * p.val = win7_4.index t (0 : Fin 2) * 5000 + 1 * p.val
      omega
    | ⟨1, _⟩ =>
      show win7_1.index t (1 : Fin 2) * 1 + 1 * q.val = win7_4.index t (1 : Fin 2) * 1 + 1 * q.val
      omega
  have hS : iblk7 V c 2 t (ix2 p (0 : Fin 1))
      = V c main_v31 (ix2 ((((cfg7.win 4).blk t).view.emb (ix2 p q)) 0) (0 : Fin 1)) := by
    show V c main_v31 (((cfg7.win 2).blk t).view.emb (ix2 p (0 : Fin 1))) = _
    refine congrArg _ (funext fun a => Fin.ext ?_)
    match a with
    | ⟨0, _⟩ =>
      show win7_2.index t (0 : Fin 2) * 5000 + 1 * p.val = win7_4.index t (0 : Fin 2) * 5000 + 1 * p.val
      omega
    | ⟨1, _⟩ =>
      show win7_2.index t (1 : Fin 2) * 1 + 1 * 0 = 0
      omega
  have hB : iblk7 V c 3 t (ix2 (0 : Fin 1) q)
      = V c main_v92 (ix2 (0 : Fin 1) ((((cfg7.win 4).blk t).view.emb (ix2 p q)) 1)) := by
    show V c main_v92 (((cfg7.win 3).blk t).view.emb (ix2 (0 : Fin 1) q)) = _
    refine congrArg _ (funext fun a => Fin.ext ?_)
    match a with
    | ⟨0, _⟩ =>
      show win7_3.index t (0 : Fin 2) * 1 + 1 * 0 = 0
      omega
    | ⟨1, _⟩ =>
      show win7_3.index t (1 : Fin 2) * 1 + 1 * q.val = win7_4.index t (1 : Fin 2) * 1 + 1 * q.val
      omega
  exact congrArg₂ (fun a b : EReal => a + b)
    (congrArg₂ (fun a b : EReal => a + b) hA (congrArg₂ (fun a b : EReal => a * b) hH hS)) hB

/-- An index of the result array is in point `t`'s block iff each coordinate is in the block's range on its axis. -/
theorem mem7 (t : Fin cfg7.N) (i : S100000x1.Idx) :
    i ∈ ((cfg7.win 4).blk t).view.set ↔ ∀ a : Fin 2, win7_4.index t a * S5000x1.size a ≤ (i a).val
      ∧ (i a).val < win7_4.index t a * S5000x1.size a + S5000x1.size a := by
  show i ∈ ((View.whole main_v93).slice (win7_4.rect t)).set ↔ _
  rw [View.set_slice_whole, Rect.mem_set_unit]
  exact Iff.rfl

/-- Row `r` lies in the block of point `r / 5000`: the twenty blocks tile the result. -/
theorem cover7 (i : S100000x1.Idx) :
    ∃ t : Fin cfg7.N, (cfg7.win 4).flush t = true ∧ i ∈ ((cfg7.win 4).blk t).view.set := by
  have hi0 : (i 0).val < 100000 := (i 0).isLt
  have hi1 : (i 1).val < 1 := (i 1).isLt
  obtain ⟨t, ht⟩ := onto7 ⟨(i 0).val / 5000, by omega⟩
  have q0 : win7_4.index t (0 : Fin 2) = (i 0).val / 5000 := congrFun ht 0
  have q1 : win7_4.index t (1 : Fin 2) = 0 := congrFun ht 1
  refine ⟨t, flush7_4 t, ?_⟩
  rw [mem7]
  intro a
  match a with
  | ⟨0, _⟩ =>
    show win7_4.index t (0 : Fin 2) * 5000 ≤ (i 0).val ∧ (i 0).val < win7_4.index t (0 : Fin 2) * 5000 + 5000
    omega
  | ⟨1, _⟩ =>
    show win7_4.index t (1 : Fin 2) * 1 ≤ (i 1).val ∧ (i 1).val < win7_4.index t (1 : Fin 2) * 1 + 1
    omega

/-- The result array after the launch: the combination of the four operands as the launch finds them. -/
theorem final7 (c : Dev nD) :
    (dat7 V c).arrAt 4 cfg7.N = mix (V c main_v79) (V c main_v91) (V c main_v31) (V c main_v92) :=
  (dat7 V c).arrAt_eq_of_cover 4 _ (fun t _ => flushed7 V c t) (cover7)

end Cert.KernelIdeal.Layer

end
-- ==== Proof.FoldB.lean ====
import proofs.«178999_j54425825575435_1_alg».proof.Proof.Gen.KernelIdeal.Frame
import proofs.«178999_j54425825575435_1_alg».proof.Proof.FoldA
import proofs.«178999_j54425825575435_1_alg».proof.Proof.Dense4
import proofs.«178999_j54425825575435_1_alg».proof.Proof.Dense6
import proofs.«178999_j54425825575435_1_alg».proof.Proof.Mix5
import proofs.«178999_j54425825575435_1_alg».proof.Proof.Mix7
import proofs.«178999_j54425825575435_1_alg».proof.Proof.RefNet
import Idealize.ShloMosaic.Lib.StableHlo.Run
import Idealize.ShloMosaic.Lib.ValueIdx

/-!
# The kernel program's buffers, boundary by boundary: the two layers of width one, and the results

The last two layers both read the second layer's output: the first through a rectifier inside its dense launch, the
second as it is — so that output is carried past the first of them, through the launch that reads it, unchanged. Each
layer's dense launch leaves one column; the stretch after it aggregates the column over the edges and reshapes the
one-entry bias; the combining launch leaves the layer's output, which is one of the program's two results. The first
result is written three segments before the program ends and nothing after writes it. Buffers needed late are carried
in short hops, each from where the previous layer left them.
-/

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo
open GcnLayer Cert.ReferenceIdeal.Read Cert.ReferenceIdeal.Net

variable (m : (ℓ : Loc nD τ sig) → Buf (Elt Ideal) ℓ) (ρ : Dev nD → PrngReg) (c : Dev nD)

-- the ten argument arrays as launched
set_option quotPrecheck false
local notation "x₀" => m ((c.tc : Thread nD τ).loc main_arg0)
local notation "x₁" => m ((c.tc : Thread nD τ).loc main_arg1)
local notation "x₂" => m ((c.tc : Thread nD τ).loc main_arg2)
local notation "x₃" => m ((c.tc : Thread nD τ).loc main_arg3)
local notation "x₄" => m ((c.tc : Thread nD τ).loc main_arg4)
local notation "x₅" => m ((c.tc : Thread nD τ).loc main_arg5)
local notation "x₆" => m ((c.tc : Thread nD τ).loc main_arg6)
local notation "x₇" => m ((c.tc : Thread nD τ).loc main_arg7)
local notation "x₈" => m ((c.tc : Thread nD τ).loc main_arg8)
local notation "x₉" => m ((c.tc : Thread nD τ).loc main_arg9)

/-! ## What the later segments need, carried there -/

/-- The column of node weights after the first layer: the combining launch that read it wrote nothing back to it. -/
theorem col5 : W5 m ρ c (Proc.devRef .tc main_v31) = nodeCol x₁ :=
  (((((W5_of_ne m ρ c main_v31 (by decide)).trans
      ((W4_arr m ρ c 2).trans (((dat1 (V3 m ρ) c).arrAt_in 2 rfl _).trans (A_eq1 (V3 m ρ) c 2)))).trans
      (hostKeep3 m ρ c main_v31 (by host_untouched))).trans
      (W2_of_ne m ρ c main_v31 (by decide)))).trans (col1 m ρ c)

/-- The column of node weights after the second layer. -/
theorem col9 : W9 m ρ c (Proc.devRef .tc main_v31) = nodeCol x₁ :=
  (((((hostKeep9 m ρ c main_v31 (by host_untouched)).trans
      (W8_of_ne m ρ c main_v31 (by decide))).trans
      ((W7_arr m ρ c 2).trans (((dat3 (V6 m ρ) c).arrAt_in 2 rfl _).trans (A_eq3 (V6 m ρ) c 2)))).trans
      (hostKeep6 m ρ c main_v31 (by host_untouched)))).trans (col5 m ρ c)

/-- The column of node weights after the third layer. -/
theorem col12 : W12 m ρ c (Proc.devRef .tc main_v31) = nodeCol x₁ :=
  ((((hostKeep12 m ρ c main_v31 (by host_untouched)).trans
      (W11_of_ne m ρ c main_v31 (by decide))).trans
      ((W10_arr m ρ c 2).trans (((dat5 (V9 m ρ) c).arrAt_in 2 rfl _).trans (A_eq5 (V9 m ρ) c 2))))).trans (col9 m ρ c)

/-- The later layers' weight matrices and biases: arguments, which no segment writes. -/
theorem arg6_at5 : W5 m ρ c (Proc.devRef .tc main_arg6) = x₆ :=
  (((((W5_of_ne m ρ c main_arg6 (by decide)).trans
      (W4_of_ne m ρ c main_arg6 (by decide))).trans
      (hostKeep3 m ρ c main_arg6 (by host_untouched))).trans
      (W2_of_ne m ρ c main_arg6 (by decide))).trans
      (hostKeep1 m ρ c main_arg6 (by host_untouched)))
theorem arg7_at5 : W5 m ρ c (Proc.devRef .tc main_arg7) = x₇ :=
  (((((W5_of_ne m ρ c main_arg7 (by decide)).trans
      (W4_of_ne m ρ c main_arg7 (by decide))).trans
      (hostKeep3 m ρ c main_arg7 (by host_untouched))).trans
      (W2_of_ne m ρ c main_arg7 (by decide))).trans
      (hostKeep1 m ρ c main_arg7 (by host_untouched)))
theorem arg8_at5 : W5 m ρ c (Proc.devRef .tc main_arg8) = x₈ :=
  (((((W5_of_ne m ρ c main_arg8 (by decide)).trans
      (W4_of_ne m ρ c main_arg8 (by decide))).trans
      (hostKeep3 m ρ c main_arg8 (by host_untouched))).trans
      (W2_of_ne m ρ c main_arg8 (by decide))).trans
      (hostKeep1 m ρ c main_arg8 (by host_untouched)))
theorem arg9_at5 : W5 m ρ c (Proc.devRef .tc main_arg9) = x₉ :=
  (((((W5_of_ne m ρ c main_arg9 (by decide)).trans
      (W4_of_ne m ρ c main_arg9 (by decide))).trans
      (hostKeep3 m ρ c main_arg9 (by host_untouched))).trans
      (W2_of_ne m ρ c main_arg9 (by decide))).trans
      (hostKeep1 m ρ c main_arg9 (by host_untouched)))

theorem arg6_at7 : W7 m ρ c (Proc.devRef .tc main_arg6) = x₆ :=
  (((W7_of_ne m ρ c main_arg6 (by decide)).trans
      (hostKeep6 m ρ c main_arg6 (by host_untouched)))).trans (arg6_at5 m ρ c)
theorem arg7_at8 : W8 m ρ c (Proc.devRef .tc main_arg7) = x₇ :=
  ((((W8_of_ne m ρ c main_arg7 (by decide)).trans
      (W7_of_ne m ρ c main_arg7 (by decide))).trans
      (hostKeep6 m ρ c main_arg7 (by host_untouched)))).trans (arg7_at5 m ρ c)
theorem arg8_at10 : W10 m ρ c (Proc.devRef .tc main_arg8) = x₈ :=
  ((((((W10_of_ne m ρ c main_arg8 (by decide)).trans
      (hostKeep9 m ρ c main_arg8 (by host_untouched))).trans
      (W8_of_ne m ρ c main_arg8 (by decide))).trans
      (W7_of_ne m ρ c main_arg8 (by decide))).trans
      (hostKeep6 m ρ c main_arg8 (by host_untouched)))).trans (arg8_at5 m ρ c)
theorem arg9_at11 : W11 m ρ c (Proc.devRef .tc main_arg9) = x₉ :=
  (((((((W11_of_ne m ρ c main_arg9 (by decide)).trans
      (W10_of_ne m ρ c main_arg9 (by decide))).trans
      (hostKeep9 m ρ c main_arg9 (by host_untouched))).trans
      (W8_of_ne m ρ c main_arg9 (by decide))).trans
      (W7_of_ne m ρ c main_arg9 (by decide))).trans
      (hostKeep6 m ρ c main_arg9 (by host_untouched)))).trans (arg9_at5 m ρ c)

/-! ## The layer on the rectified features: the first result -/

/-- The dense launch leaves the dense transform of the layer's input. -/
theorem denseAt3 : W8 m ρ c (Proc.devRef .tc main_v64) = (dense (m := 100000) (k := 32) (n := 1) (rect (m := 100000) (n := 32) (h2 x₀ x₁ x₂ x₄ (nodeCol x₁) (biasRow (n := 32) x₃ castRow32) (biasRow (n := 32) x₅ castRow32))) x₆) :=
  (W8_arr m ρ c 2).trans ((Layer.final4 (V7 m ρ) c).trans (by
    rw [show V7 m ρ c main_v63 = (h2 x₀ x₁ x₂ x₄ (nodeCol x₁) (biasRow (n := 32) x₃ castRow32) (biasRow (n := 32) x₅ castRow32)) from out2 m ρ c,
        show V7 m ρ c main_arg6 = x₆ from arg6_at7 m ρ c]))

/-- The edge list's two rows and the edge weights, carried unchanged to the third stretch of host operations. -/
theorem src8 : W8 m ρ c (Proc.devRef .tc main_v1) = val_main_v1 (F := Ideal) x₁ :=
  ((((W8_of_ne m ρ c main_v1 (by decide)).trans
      (W7_of_ne m ρ c main_v1 (by decide))).trans
      (hostKeep6 m ρ c main_v1 (by host_untouched)))).trans (src5 m ρ c)
theorem dst8 : W8 m ρ c (Proc.devRef .tc main_v3) = val_main_v3 (F := Ideal) x₁ :=
  ((((W8_of_ne m ρ c main_v3 (by decide)).trans
      (W7_of_ne m ρ c main_v3 (by decide))).trans
      (hostKeep6 m ρ c main_v3 (by host_untouched)))).trans (dst5 m ρ c)
theorem ew8 : W8 m ρ c (Proc.devRef .tc main_v29) = val_main_v29 (F := Ideal) x₁ :=
  ((((W8_of_ne m ρ c main_v29 (by decide)).trans
      (W7_of_ne m ρ c main_v29 (by decide))).trans
      (hostKeep6 m ρ c main_v29 (by host_untouched)))).trans (ew5 m ρ c)

/-- The stretch aggregates the transformed column over the edges: the reference's operations on the same edge list. -/
theorem aggAt3 : W9 m ρ c (Proc.devRef .tc main_v76) = agg1 (dense (m := 100000) (k := 32) (n := 1) (rect (m := 100000) (n := 32) (h2 x₀ x₁ x₂ x₄ (nodeCol x₁) (biasRow (n := 32) x₃ castRow32) (biasRow (n := 32) x₅ castRow32))) x₆) x₁ := by
  show StableHlo.after hostOps5 (W8 m ρ c) (Proc.devRef .tc main_v76) = _
  dsimp only [hostOps5]
  after_results_simp
  rw [denseAt3 m ρ c, src8 m ρ c, dst8 m ρ c, ew8 m ρ c]
  rfl

/-- The stretch reshapes the one-entry bias to a one-by-one matrix. -/
theorem biasAt3 : W9 m ρ c (Proc.devRef .tc main_v77) = biasRow (n := 1) x₇ castRow1 := by
  show StableHlo.after hostOps5 (W8 m ρ c) (Proc.devRef .tc main_v77) = _
  dsimp only [hostOps5]
  after_results_simp
  rw [arg7_at8 m ρ c]
  rfl

/-- The transformed column, kept by the stretch. -/
theorem denseKept3 : W9 m ρ c (Proc.devRef .tc main_v64) = (dense (m := 100000) (k := 32) (n := 1) (rect (m := 100000) (n := 32) (h2 x₀ x₁ x₂ x₄ (nodeCol x₁) (biasRow (n := 32) x₃ castRow32) (biasRow (n := 32) x₅ castRow32))) x₆) :=
  ((hostKeep9 m ρ c main_v64 (by host_untouched))).trans (denseAt3 m ρ c)

/-- The combining launch leaves the first result. -/
theorem out3 : W10 m ρ c (Proc.devRef .tc main_v78) = muOf x₀ x₁ x₂ x₃ x₄ x₅ x₆ x₇ := by
  refine (W10_arr m ρ c 4).trans ((Layer.final5 (V9 m ρ) c).trans ?_)
  rw [show V9 m ρ c main_v64 = (dense (m := 100000) (k := 32) (n := 1) (rect (m := 100000) (n := 32) (h2 x₀ x₁ x₂ x₄ (nodeCol x₁) (biasRow (n := 32) x₃ castRow32) (biasRow (n := 32) x₅ castRow32))) x₆) from denseKept3 m ρ c,
      show V9 m ρ c main_v76 = agg1 (dense (m := 100000) (k := 32) (n := 1) (rect (m := 100000) (n := 32) (h2 x₀ x₁ x₂ x₄ (nodeCol x₁) (biasRow (n := 32) x₃ castRow32) (biasRow (n := 32) x₅ castRow32))) x₆) x₁ from aggAt3 m ρ c,
      show V9 m ρ c main_v31 = nodeCol x₁ from col9 m ρ c,
      show V9 m ρ c main_v77 = biasRow (n := 1) x₇ castRow1 from biasAt3 m ρ c]
  rfl

/-- The second layer's output, carried past the third layer: the dense launch that read it wrote nothing back to it. -/
theorem h2_at10 : W10 m ρ c (Proc.devRef .tc main_v63) = (h2 x₀ x₁ x₂ x₄ (nodeCol x₁) (biasRow (n := 32) x₃ castRow32) (biasRow (n := 32) x₅ castRow32)) :=
  ((((W10_of_ne m ρ c main_v63 (by decide)).trans
      (hostKeep9 m ρ c main_v63 (by host_untouched))).trans
      ((W8_arr m ρ c 0).trans (((dat4 (V7 m ρ) c).arrAt_in 0 rfl _).trans (A_eq4 (V7 m ρ) c 0))))).trans (out2 m ρ c)

/-! ## The layer on the features as they are: the second result -/

/-- The dense launch leaves the dense transform of the layer's input. -/
theorem denseAt4 : W11 m ρ c (Proc.devRef .tc main_v79) = (dense (m := 100000) (k := 32) (n := 1) (h2 x₀ x₁ x₂ x₄ (nodeCol x₁) (biasRow (n := 32) x₃ castRow32) (biasRow (n := 32) x₅ castRow32)) x₈) :=
  (W11_arr m ρ c 2).trans ((Layer.final6 (V10 m ρ) c).trans (by
    rw [show V10 m ρ c main_v63 = (h2 x₀ x₁ x₂ x₄ (nodeCol x₁) (biasRow (n := 32) x₃ castRow32) (biasRow (n := 32) x₅ castRow32)) from h2_at10 m ρ c,
        show V10 m ρ c main_arg8 = x₈ from arg8_at10 m ρ c]))

/-- The edge list's two rows and the edge weights, carried unchanged to the fourth stretch of host operations. -/
theorem src11 : W11 m ρ c (Proc.devRef .tc main_v1) = val_main_v1 (F := Ideal) x₁ :=
  ((((W11_of_ne m ρ c main_v1 (by decide)).trans
      (W10_of_ne m ρ c main_v1 (by decide))).trans
      (hostKeep9 m ρ c main_v1 (by host_untouched)))).trans (src8 m ρ c)
theorem dst11 : W11 m ρ c (Proc.devRef .tc main_v3) = val_main_v3 (F := Ideal) x₁ :=
  ((((W11_of_ne m ρ c main_v3 (by decide)).trans
      (W10_of_ne m ρ c main_v3 (by decide))).trans
      (hostKeep9 m ρ c main_v3 (by host_untouched)))).trans (dst8 m ρ c)
theorem ew11 : W11 m ρ c (Proc.devRef .tc main_v29) = val_main_v29 (F := Ideal) x₁ :=
  ((((W11_of_ne m ρ c main_v29 (by decide)).trans
      (W10_of_ne m ρ c main_v29 (by decide))).trans
      (hostKeep9 m ρ c main_v29 (by host_untouched)))).trans (ew8 m ρ c)

/-- The stretch aggregates the transformed column over the edges: the reference's operations on the same edge list. -/
theorem aggAt4 : W12 m ρ c (Proc.devRef .tc main_v91) = agg1 (dense (m := 100000) (k := 32) (n := 1) (h2 x₀ x₁ x₂ x₄ (nodeCol x₁) (biasRow (n := 32) x₃ castRow32) (biasRow (n := 32) x₅ castRow32)) x₈) x₁ := by
  show StableHlo.after hostOps7 (W11 m ρ c) (Proc.devRef .tc main_v91) = _
  dsimp only [hostOps7]
  after_results_simp
  rw [denseAt4 m ρ c, src11 m ρ c, dst11 m ρ c, ew11 m ρ c]
  rfl

/-- The stretch reshapes the one-entry bias to a one-by-one matrix. -/
theorem biasAt4 : W12 m ρ c (Proc.devRef .tc main_v92) = biasRow (n := 1) x₉ castRow1 := by
  show StableHlo.after hostOps7 (W11 m ρ c) (Proc.devRef .tc main_v92) = _
  dsimp only [hostOps7]
  after_results_simp
  rw [arg9_at11 m ρ c]
  rfl

/-- The transformed column, kept by the stretch. -/
theorem denseKept4 : W12 m ρ c (Proc.devRef .tc main_v79) = (dense (m := 100000) (k := 32) (n := 1) (h2 x₀ x₁ x₂ x₄ (nodeCol x₁) (biasRow (n := 32) x₃ castRow32) (biasRow (n := 32) x₅ castRow32)) x₈) :=
  ((hostKeep12 m ρ c main_v79 (by host_untouched))).trans (denseAt4 m ρ c)

/-- The combining launch leaves the second result. -/
theorem out4 : W13 m ρ c (Proc.devRef .tc main_v93) = sdOf x₀ x₁ x₂ x₃ x₄ x₅ x₈ x₉ := by
  refine (W13_arr m ρ c 4).trans ((Layer.final7 (V12 m ρ) c).trans ?_)
  rw [show V12 m ρ c main_v79 = (dense (m := 100000) (k := 32) (n := 1) (h2 x₀ x₁ x₂ x₄ (nodeCol x₁) (biasRow (n := 32) x₃ castRow32) (biasRow (n := 32) x₅ castRow32)) x₈) from denseKept4 m ρ c,
      show V12 m ρ c main_v91 = agg1 (dense (m := 100000) (k := 32) (n := 1) (h2 x₀ x₁ x₂ x₄ (nodeCol x₁) (biasRow (n := 32) x₃ castRow32) (biasRow (n := 32) x₅ castRow32)) x₈) x₁ from aggAt4 m ρ c,
      show V12 m ρ c main_v31 = nodeCol x₁ from col12 m ρ c,
      show V12 m ρ c main_v92 = biasRow (n := 1) x₉ castRow1 from biasAt4 m ρ c]
  rfl

/-! ## The two results at the last boundary -/

/-- The first result is still there at the end: the last dense launch, the last stretch and the last combining launch
    do not write it. -/
theorem result_mu : W13 m ρ c (Proc.devRef .tc main_v78) = muOf x₀ x₁ x₂ x₃ x₄ x₅ x₆ x₇ :=
  ((((W13_of_ne m ρ c main_v78 (by decide)).trans
      (hostKeep12 m ρ c main_v78 (by host_untouched))).trans
      (W11_of_ne m ρ c main_v78 (by decide)))).trans (out3 m ρ c)

/-- The second result is what the last launch leaves. -/
theorem result_sd : W13 m ρ c (Proc.devRef .tc main_v93) = sdOf x₀ x₁ x₂ x₃ x₄ x₅ x₈ x₉ := out4 m ρ c

end Cert.KernelIdeal.Fold

end
-- ==== Proof.lean ====
/- Four graph-convolution layers on 100000 nodes and 1600000 edges, computed two ways, give the same two results on the
   extended reals.

   Both programs derive, from the edge list alone, a weight for every edge and a weight for every node (an inverse square
   root of each node's in-degree plus one, multiplied at an edge's two ends, and squared at a node). A layer transforms
   every node's feature row by a weight matrix, sums at each node the transformed rows of the sources of its incoming
   edges scaled by the edges' weights, adds the node's own transformed row scaled by the node's weight, and adds a bias.
   Two layers of width 32 follow one another; two layers of width one both read the second layer's output, the first of
   them after replacing every entry by the larger of itself and zero. Their outputs are the two results.

   One program writes each layer with whole-array operations. The other computes the dense transform and the final
   combination of every layer in launches that work through the 100000 rows in twenty blocks of 5000, rounding the
   operands of each product to a narrower float format first and accumulating from zero; between the launches it uses
   the first program's own operations on the edge list. On the extended reals the rounding is the identity and the zero
   accumulator contributes nothing; a row of a layer's dense transform or combination depends on the same row of the
   row-indexed operands only, and the twenty blocks tile the rows, so each launch leaves the layer's whole-array
   function of its operands (Proof/Dense0 … Dense6, Proof/Mix1 … Mix7, over Proof/Payload and Proof/LibGcnLayer). The
   aggregation over the edges is one and the same function of the transformed rows in both programs and is never
   opened (Proof/RefNet). Read boundary by boundary, the blockwise program's buffers therefore hold the first program's
   stages (Proof/FoldA, Proof/FoldB), and its two result buffers end at the first program's two results.

   No step uses that an input is finite: the two sides are the same arrangement of sums and products, and the only
   laws used are that zero plus a sum is the sum and that equal summands give equal sums. Nothing is rewritten by the
   idealization, so it preserves the program as it stands. Each program terminates on every weakly fair execution
   without a fault and leaves its arguments unchanged: for the two kernel programs that is the generated frame, for
   the whole-array program its generated run with the results dropped. -/
import proofs.«178999_j54425825575435_1_alg».proof.Defs
import proofs.«178999_j54425825575435_1_alg».proof.Proof.Gen.Kernel
import proofs.«178999_j54425825575435_1_alg».proof.Proof.Gen.Kernel.Frame
import proofs.«178999_j54425825575435_1_alg».proof.Proof.Gen.KernelIdeal
import proofs.«178999_j54425825575435_1_alg».proof.Proof.Gen.KernelIdeal.Frame
import proofs.«178999_j54425825575435_1_alg».proof.Proof.Gen.ReferenceIdeal
import proofs.«178999_j54425825575435_1_alg».proof.Proof.Gen.ReferenceIdeal.Run
import proofs.«178999_j54425825575435_1_alg».proof.Proof.Gen.ReferenceIdeal.Read
import proofs.«178999_j54425825575435_1_alg».proof.Proof.Gen.Pre_finite_inputs
import proofs.«178999_j54425825575435_1_alg».proof.Proof.KernelRun
import proofs.«178999_j54425825575435_1_alg».proof.Proof.FoldB
import proofs.«178999_j54425825575435_1_alg».proof.Proof.RefNet
import Idealize.ShloMosaic.Adequacy
import Idealize.ShloMosaic.Init

set_option maxRecDepth 16384

noncomputable section

namespace Cert.Proof

open Idealize.ShloMosaic Idealize.SL.Sem

/-- The reference terminates with its arguments unchanged: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the ten arguments both programs end with the same two results: the blockwise
    program's result buffers hold, at its last boundary, the two functions of the arguments that the whole-array
    program's result terms are. -/
theorem algebraic : Cert.algebraic_KernelIdeal_ReferenceIdeal := by
  intro m ρ m' ρ' _ hagree
  refine ⟨fun c => Cert.ReferenceIdeal.Net.muOf
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)),
      fun c => Cert.ReferenceIdeal.Net.sdOf
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Fold.result_mu m ρ c),
        (h c).2.1.trans (Cert.KernelIdeal.Fold.result_sd m ρ c), (h c).2.2⟩)
      (Cert.KernelIdeal.Named.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9⟩ := hagree c
      rw [Cert.ReferenceIdeal.Read.val_main_v92_eq, Cert.ReferenceIdeal.Net.mu_ref, a0, a1, a2, a3, a4, a5, a6, a7]
    · obtain ⟨a0, a1, a2, a3, a4, a5, a6, a7, a8, a9⟩ := hagree c
      rw [Cert.ReferenceIdeal.Read.val_main_v111_eq, Cert.ReferenceIdeal.Net.sd_ref, a0, a1, a2, a3, a4, a5, a8, a9]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
